-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S512x512 : Shape := ⟨2, ![512, 512]⟩
abbrev S32x512 : Shape := ⟨2, ![32, 512]⟩
abbrev S_ : Shape := ⟨0, ![]⟩
abbrev S16 : Shape := ⟨1, ![16]⟩
abbrev S1x16 : Shape := ⟨2, ![1, 16]⟩
abbrev S2048x512 : Shape := ⟨2, ![2048, 512]⟩
abbrev S1536x512 : Shape := ⟨2, ![1536, 512]⟩

abbrev nBuf : Table → Nat
  | .hbm => 4
  | .local .tc .vmem => 4
  | .local .scVector .vmem => 1
  | _ => 0

abbrev bufTy : (tb : Table) → Fin (nBuf tb) → BufTy
  | .hbm, ⟨0, _⟩ => ⟨S65536x512, .f32⟩
  | .hbm, ⟨1, _⟩ => ⟨S512x512, .f32⟩
  | .hbm, ⟨2, _⟩ => ⟨S65536x512, .f32⟩
  | .hbm, ⟨3, _⟩ => ⟨S65536x512, .f32⟩
  | .local .tc .vmem, ⟨0, _⟩ => ⟨S2048x512, .f32⟩
  | .local .tc .vmem, ⟨1, _⟩ => ⟨S2048x512, .f32⟩
  | .local .tc .vmem, ⟨2, _⟩ => ⟨S512x512, .f32⟩
  | .local .tc .vmem, ⟨3, _⟩ => ⟨S2048x512, .f32⟩
  | .local .scVector .vmem, ⟨0, _⟩ => ⟨S32x512, .f32⟩
  | _, _ => ⟨S65536x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => true
  | ⟨2, _⟩ => true
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc2_stg0_0 : Ref sig .tc := ⟨.vmem, 2, rfl⟩
abbrev cc2_stg1_0 : Ref sig .tc := ⟨.vmem, 3, rfl⟩
abbrev cc0_scratch0 : Ref sig .scVector := ⟨.vmem, 0, rfl⟩
abbrev cc1_sem0_0 : DmaSem sig := 1
abbrev cc1_sem0_1 : DmaSem sig := 2
abbrev cc2_sem0_0 : DmaSem sig := 3
abbrev cc2_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_0 : BitVec 32 := 0#32
  let c32_i32 : BitVec 32 := 32#32
  let v2 : BitVec 32 := Scalar.addi c0_i32_0 c32_i32
  let c1_i32_1 : BitVec 32 := 1#32
  ⟨c0_i32_0, v2, c1_i32_1⟩
def k0_off1 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v9 : Index := Scalar.indexCast arg5
  let c0 : Index := 0#32
  ![v9.toNat, 0]
def k0_off2 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v14 : Index := Scalar.indexCast arg5
  let c16 : Index := 16#32
  ![v14.toNat, 16]
def k0_off3 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v19 : Index := Scalar.indexCast arg5
  let c32 : Index := 32#32
  ![v19.toNat, 32]
def k0_off4 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v24 : Index := Scalar.indexCast arg5
  let c48 : Index := 48#32
  ![v24.toNat, 48]
def k0_off5 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v29 : Index := Scalar.indexCast arg5
  let c64 : Index := 64#32
  ![v29.toNat, 64]
def k0_off6 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v34 : Index := Scalar.indexCast arg5
  let c80 : Index := 80#32
  ![v34.toNat, 80]
def k0_off7 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v39 : Index := Scalar.indexCast arg5
  let c96 : Index := 96#32
  ![v39.toNat, 96]
def k0_off8 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v44 : Index := Scalar.indexCast arg5
  let c112 : Index := 112#32
  ![v44.toNat, 112]
def k0_off9 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v49 : Index := Scalar.indexCast arg5
  let c128 : Index := 128#32
  ![v49.toNat, 128]
def k0_off10 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v54 : Index := Scalar.indexCast arg5
  let c144 : Index := 144#32
  ![v54.toNat, 144]
def k0_off11 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v59 : Index := Scalar.indexCast arg5
  let c160 : Index := 160#32
  ![v59.toNat, 160]
def k0_off12 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v64 : Index := Scalar.indexCast arg5
  let c176 : Index := 176#32
  ![v64.toNat, 176]
def k0_off13 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v69 : Index := Scalar.indexCast arg5
  let c192 : Index := 192#32
  ![v69.toNat, 192]
def k0_off14 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v74 : Index := Scalar.indexCast arg5
  let c208 : Index := 208#32
  ![v74.toNat, 208]
def k0_off15 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v79 : Index := Scalar.indexCast arg5
  let c224 : Index := 224#32
  ![v79.toNat, 224]
def k0_off16 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v84 : Index := Scalar.indexCast arg5
  let c240 : Index := 240#32
  ![v84.toNat, 240]
def k0_off17 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v89 : Index := Scalar.indexCast arg5
  let c256 : Index := 256#32
  ![v89.toNat, 256]
def k0_off18 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v94 : Index := Scalar.indexCast arg5
  let c272 : Index := 272#32
  ![v94.toNat, 272]
def k0_off19 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v99 : Index := Scalar.indexCast arg5
  let c288 : Index := 288#32
  ![v99.toNat, 288]
def k0_off20 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v104 : Index := Scalar.indexCast arg5
  let c304 : Index := 304#32
  ![v104.toNat, 304]
def k0_off21 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v109 : Index := Scalar.indexCast arg5
  let c320 : Index := 320#32
  ![v109.toNat, 320]
def k0_off22 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v114 : Index := Scalar.indexCast arg5
  let c336 : Index := 336#32
  ![v114.toNat, 336]
def k0_off23 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v119 : Index := Scalar.indexCast arg5
  let c352 : Index := 352#32
  ![v119.toNat, 352]
def k0_off24 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v124 : Index := Scalar.indexCast arg5
  let c368 : Index := 368#32
  ![v124.toNat, 368]
def k0_off25 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v129 : Index := Scalar.indexCast arg5
  let c384 : Index := 384#32
  ![v129.toNat, 384]
def k0_off26 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v134 : Index := Scalar.indexCast arg5
  let c400 : Index := 400#32
  ![v134.toNat, 400]
def k0_off27 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v139 : Index := Scalar.indexCast arg5
  let c416 : Index := 416#32
  ![v139.toNat, 416]
def k0_off28 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v144 : Index := Scalar.indexCast arg5
  let c432 : Index := 432#32
  ![v144.toNat, 432]
def k0_off29 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v149 : Index := Scalar.indexCast arg5
  let c448 : Index := 448#32
  ![v149.toNat, 448]
def k0_off30 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v154 : Index := Scalar.indexCast arg5
  let c464 : Index := 464#32
  ![v154.toNat, 464]
def k0_off31 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v159 : Index := Scalar.indexCast arg5
  let c480 : Index := 480#32
  ![v159.toNat, 480]
def k0_off32 (k0_t1 : Fin k0_t1_loop.trips) : Fin 2 → Nat :=
  let c0_i32_0 : BitVec 32 := 0#32
  let c1_i32_1 : BitVec 32 := 1#32
  let arg5 : BitVec 32 := Scf.iv c0_i32_0 c1_i32_1 k0_t1
  let v164 : Index := Scalar.indexCast arg5
  let c496 : Index := 496#32
  ![v164.toNat, 496]
def k0_off33 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c32_i32_3 : BitVec 32 := 32#32
  let v3 : BitVec 32 := Scalar.muli v1 c32_i32_3
  let c0_i32_4 : BitVec 32 := 0#32
  ![v3.toNat, 0]
abbrev grid1 : Pipeline.Grid := ⟨1, ![31], ![false]⟩

def cc1_transform_0 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![1], ![false]⟩

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S1x16 : 0 < S1x16.numel
  shapeCasts_S1x16_S16 : S1x16.ShapeCasts S16
  shapeCasts_S16_S1x16 : S16.ShapeCasts S1x16
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S512x512_0_0 : ∀ a, (![0, 0] : Fin 2 → Nat) a + S512x512.size a ≤ S2048x512.size a
  inb_S2048x512_S1536x512_512_0 : ∀ a, (![512, 0] : Fin 2 → Nat) a + S1536x512.size a ≤ S2048x512.size a
  h_S1536x512 : 0 < S1536x512.numel
  hcc0_scratch1 : 0 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x16.size a ≤ S32x512.size a
  k0_off2_inb : ∀ k0_t1 : Fin k0_t1_loop.trips, ∀ a, (k0_off2 k0_t1) a + S1x16.size a ≤ S32x512.size a
  k0_off3_inb : ∀ k0_t1 : Fin k0_t1_loop.trips, ∀ a, (k0_off3 k0_t1) a + S1x16.size a ≤ S32x512.size a
  k0_off4_inb : ∀ k0_t1 : Fin k0_t1_loop.trips, ∀ a, (k0_off4 k0_t1) a + S1x16.size a ≤ S32x512.size a
  k0_off5_inb : ∀ k0_t1 : Fin k0_t1_loop.trips, ∀ a, (k0_off5 k0_t1) a + S1x16.size a ≤ S32x512.size a
  k0_off6_inb : ∀ k0_t1 : Fin k0_t1_loop.trips, ∀ a, (k0_off6 k0_t1) a + S1x16.size a ≤ S32x512.size a
  k0_off7_inb : ∀ k0_t1 : Fin k0_t1_loop.trips, ∀ a, (k0_off7 k0_t1) a + S1x16.size a ≤ S32x512.size a
  k0_off8_inb : ∀ k0_t1 : Fin k0_t1_loop.trips, ∀ a, (k0_off8 k0_t1) a + S1x16.size a ≤ S32x512.size a
  k0_off9_inb : ∀ k0_t1 : Fin k0_t1_loop.trips, ∀ a, (k0_off9 k0_t1) a + S1x16.size a ≤ S32x512.size a
  k0_off10_inb : ∀ k0_t1 : Fin k0_t1_loop.trips, ∀ a, (k0_off10 k0_t1) a + S1x16.size a ≤ S32x512.size a
  k0_off11_inb : ∀ k0_t1 : Fin k0_t1_loop.trips, ∀ a, (k0_off11 k0_t1) a + S1x16.size a ≤ S32x512.size a
  k0_off12_inb : ∀ k0_t1 : Fin k0_t1_loop.trips, ∀ a, (k0_off12 k0_t1) a + S1x16.size a ≤ S32x512.size a
  k0_off13_inb : ∀ k0_t1 : Fin k0_t1_loop.trips, ∀ a, (k0_off13 k0_t1) a + S1x16.size a ≤ S32x512.size a
  k0_off14_inb : ∀ k0_t1 : Fin k0_t1_loop.trips, ∀ a, (k0_off14 k0_t1) a + S1x16.size a ≤ S32x512.size a
  k0_off15_inb : ∀ k0_t1 : Fin k0_t1_loop.trips, ∀ a, (k0_off15 k0_t1) a + S1x16.size a ≤ S32x512.size a
  k0_off16_inb : ∀ k0_t1 : Fin k0_t1_loop.trips, ∀ a, (k0_off16 k0_t1) a + S1x16.size a ≤ S32x512.size a
  k0_off17_inb : ∀ k0_t1 : Fin k0_t1_loop.trips, ∀ a, (k0_off17 k0_t1) a + S1x16.size a ≤ S32x512.size a
  k0_off18_inb : ∀ k0_t1 : Fin k0_t1_loop.trips, ∀ a, (k0_off18 k0_t1) a + S1x16.size a ≤ S32x512.size a
  k0_off19_inb : ∀ k0_t1 : Fin k0_t1_loop.trips, ∀ a, (k0_off19 k0_t1) a + S1x16.size a ≤ S32x512.size a
  k0_off20_inb : ∀ k0_t1 : Fin k0_t1_loop.trips, ∀ a, (k0_off20 k0_t1) a + S1x16.size a ≤ S32x512.size a
  k0_off21_inb : ∀ k0_t1 : Fin k0_t1_loop.trips, ∀ a, (k0_off21 k0_t1) a + S1x16.size a ≤ S32x512.size a
  k0_off22_inb : ∀ k0_t1 : Fin k0_t1_loop.trips, ∀ a, (k0_off22 k0_t1) a + S1x16.size a ≤ S32x512.size a
  k0_off23_inb : ∀ k0_t1 : Fin k0_t1_loop.trips, ∀ a, (k0_off23 k0_t1) a + S1x16.size a ≤ S32x512.size a
  k0_off24_inb : ∀ k0_t1 : Fin k0_t1_loop.trips, ∀ a, (k0_off24 k0_t1) a + S1x16.size a ≤ S32x512.size a
  k0_off25_inb : ∀ k0_t1 : Fin k0_t1_loop.trips, ∀ a, (k0_off25 k0_t1) a + S1x16.size a ≤ S32x512.size a
  k0_off26_inb : ∀ k0_t1 : Fin k0_t1_loop.trips, ∀ a, (k0_off26 k0_t1) a + S1x16.size a ≤ S32x512.size a
  k0_off27_inb : ∀ k0_t1 : Fin k0_t1_loop.trips, ∀ a, (k0_off27 k0_t1) a + S1x16.size a ≤ S32x512.size a
  k0_off28_inb : ∀ k0_t1 : Fin k0_t1_loop.trips, ∀ a, (k0_off28 k0_t1) a + S1x16.size a ≤ S32x512.size a
  k0_off29_inb : ∀ k0_t1 : Fin k0_t1_loop.trips, ∀ a, (k0_off29 k0_t1) a + S1x16.size a ≤ S32x512.size a
  k0_off30_inb : ∀ k0_t1 : Fin k0_t1_loop.trips, ∀ a, (k0_off30 k0_t1) a + S1x16.size a ≤ S32x512.size a
  k0_off31_inb : ∀ k0_t1 : Fin k0_t1_loop.trips, ∀ a, (k0_off31 k0_t1) a + S1x16.size a ≤ S32x512.size a
  k0_off32_inb : ∀ k0_t1 : Fin k0_t1_loop.trips, ∀ a, (k0_off32 k0_t1) a + S1x16.size a ≤ S32x512.size a
  k0_off33_inb : ∀ i : grid0.Coords, ∀ a, (k0_off33 i) a + S32x512.size a ≤ S512x512.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_1 i = cc2_transform_1 i'
  hinb2_0 : ∀ (i : grid2.Coords) a, (cc2_transform_1 i a + 1) * S512x512.size a ≤ S512x512.size a
  hwx2_0 : ∀ i : grid2.Coords, EltTy.bits .f32 = 32 ∨ (Rect.block (s := S512x512) S512x512.size (cc2_transform_1 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_2 i = cc2_transform_2 i'
  hinb2_1 : ∀ (i : grid2.Coords) a, (cc2_transform_2 i a + 1) * S2048x512.size a ≤ S65536x512.size a
  hwx2_1 : ∀ i : grid2.Coords, EltTy.bits .f32 = 32 ∨ (Rect.block (s := S65536x512) S2048x512.size (cc2_transform_2 i) (hinb2_1 i)).WholeWords (EltTy.packing .f32)

variable [Facts₀]

abbrev cc0_scratch1 : DmaSems sig S_ := SemArray.consecutive 0 S_ hcc0_scratch1

abbrev win1_0 : Pipeline.Window sig grid1 :=
  Pipeline.Window.ofSpec (Memref.whole main_v1) S2048x512.size cc1_transform_0 reads1_0 true false 2 stage1_0 sem1_0
    hrank1 hreads1_0 hinb1_0 nbuf1_0 (Memref.isWhole_whole _) hwx1_0 hstage1_0

abbrev win1 : Fin 1 → Pipeline.Window sig grid1 := fun | 0 => win1_0 | ⟨_ + 1, h⟩ => absurd h (Nat.not_lt.2 (Nat.le_add_left _ _))
abbrev spec1 : Fin 1 → Pipeline.WinSpec sig grid1.rank := fun w => (win1 w).toWinSpec

abbrev win2_0 : Pipeline.Window sig grid2 :=
  Pipeline.Window.ofSpec (Memref.whole main_v0) S512x512.size cc2_transform_1 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x512.size cc2_transform_2 reads2_1 true false 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S65536x512 : Shape := ⟨2, ![65536, 512]⟩
abbrev S512 : Shape := ⟨1, ![512]⟩
abbrev S_ : Shape := ⟨0, ![]⟩
abbrev S512x512 : Shape := ⟨2, ![512, 512]⟩
abbrev S512x1 : Shape := ⟨2, ![512, 1]⟩

abbrev nBuf : Space → Nat
  | .hbm => 16
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512, .i32⟩
  | .hbm, ⟨2, _⟩ => ⟨S_, .i1⟩
  | .hbm, ⟨3, _⟩ => ⟨S512x512, .i1⟩
  | .hbm, ⟨4, _⟩ => ⟨S_, .f32⟩
  | .hbm, ⟨5, _⟩ => ⟨S65536x512, .f32⟩
  | .hbm, ⟨6, _⟩ => ⟨S512x512, .f32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S_S65536x512 : S_.BroadcastsInDim S65536x512 (![] : Fin 0 → Fin S65536x512.rank)
  bcast_S_S512 : S_.BroadcastsInDim S512 (![] : Fin 0 → Fin S512.rank)
  bcast_S512_S512x1_0 : S512.BroadcastsInDim S512x1 (![0] : Fin 1 → Fin S512x1.rank)
  scatter_S65536x512_S512x1_S512x512_1_0_0_1_wf : ScatterDims.WF S65536x512 S512x1 S512x512 [1] [0] [0] 1

variable [Facts₀]

def scatter_S65536x512_S512x1_S512x512_1_0_0_1 : ScatterDims S65536x512 S512x1 S512x512 where
  updateWindowDims := [1]
  insertedWindowDims := [0]
  scatterDimsToOperandDims := [0]
  indexVectorDim := 1
  wf := scatter_S65536x512_S512x1_S512x512_1_0_0_1_wf

class Facts : Prop extends Facts₀ where

variable [Facts]
-- ==== Proof.Ideal.Common.lean ====
/-
  The SparseCore program as the launch theorem reads it, the resource algebra of its proof, and what
  the one SparseCore call carries: the 512x512 array goes to the sixteen tiles in bands of 32 rows,
  each tile fills its band with the word 1.0, and the call hands the array back holding 1.0 everywhere.
-/
import proofs.«211883_g61933428412881_cont_9to1_m_917_22_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«211883_g61933428412881_cont_9to1_m_917_22_alg».proof.Proof.Gen.KernelIdeal
import proofs.«211883_g61933428412881_cont_9to1_m_917_22_alg».proof.Proof.Gen.KernelIdeal.Skeleton
import proofs.«211883_g61933428412881_cont_9to1_m_917_22_alg».proof.Proof.Gen.KernelIdeal.Launch
import proofs.«211883_g61933428412881_cont_9to1_m_917_22_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- No pipeline has a prefetched table: the admissible contents are the trivial ones. -/
abbrev adm : (p : Fin 2) → (pcfgs (F := F) p).Adm := fun p => (cfgs p).toPCfg_adm

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans embR
instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

abbrev aLoc (d : Dev nD) : Loc nD τ sig := (SparseCore.T d).loc main_arg0
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

abbrev oV : Memref sig .scVector .hbm S512x512 .f32 := Memref.whole main_v0_scv
abbrev sW : Memref sig .scVector .vmem S32x512 .f32 := Memref.whole cc0_scratch0

/-- The sixteen bands of 32 rows: band `i` is rows `32 i … 32 i + 31`. -/
theorem hdiv : 16 ∣ S512x512.size 0 := ⟨32, rfl⟩
abbrev band (i : Fin 16) : Rect S512x512 := Rect.part (s := S512x512) (a₀ := 0) hdiv i
abbrev bandSet (i : Fin 16) : Finset S512x512.Idx := ((oV : Memref sig .scVector .hbm S512x512 .f32).view.slice (band i)).set

variable [FloatOps F]

/-- The word every tile stores: 1.0. -/
def oneF : F .f32 := Scalar.ofBits .f32 0x3F800000#32
/-- The word the TensorCore kernels store: 0.0. -/
def zeroF : F .f32 := Scalar.ofBits .f32 0x00000000#32

/-- The 512x512 array filled with 1.0. -/
def onesBuf (d : Dev nD) : Buf (Elt F) (v0Loc d) := fun _ => oneF

/-- The result: rows below 512 hold 1.0, the others 0.0. -/
def resBuf (d : Dev nD) : Buf (Elt F) (v2Loc d) := fun i => if (i 0).val < 512 then oneF else zeroF

/-! ## What the handshakes carry -/

abbrev v0Pts (d : Dev nD) (f : Buf (Elt F) (v0Loc d)) : sProp 𝕄 := v0Loc d ↦{fullShare} f
abbrev bandPts (d : Dev nD) (i : Fin 16) (f : Buf (Elt F) (v0Loc d)) : sProp 𝕄 := v0Loc d ↦[bandSet i]{fullShare} f

/-- The call takes the 512x512 array whole at any contents, each task band `i` of it, and brings it back holding 1.0. -/
def P : (K (F := F)).Pay (nD := nD) (Val := Elt F) (Name := ℕ) (U := UU) where
  st := fun q d _ => match q with | 0 => iprop(∃ f, v0Pts d f)
  dn := fun q d _ => match q with | 0 => v0Pts d (onesBuf d)
  go := fun q d _ i => match q with | 0 => iprop(∃ f, bandPts d (Fin.cast nSub_zero i) f)
  td := fun q d _ i => match q with | 0 => bandPts d (Fin.cast nSub_zero i) (onesBuf d)
  x := fun _ _ => iprop(emp)

instance P_storable : (P (F := F)).IsStorable where
  st q d _ := match q with
    | 0 => (inferInstance : BI.Storable (upEmb : UEmb _ 𝕄) iprop(∃ f, v0Pts d f))
  dn q d _ := match q with
    | 0 => (inferInstance : BI.Storable (upEmb : UEmb _ 𝕄) (v0Pts d (onesBuf d)))
  go q d _ i := match q with
    | 0 => (inferInstance : BI.Storable (upEmb : UEmb _ 𝕄) iprop(∃ f, bandPts d (Fin.cast nSub_zero i) f))
  td q d _ i := match q with
    | 0 => (inferInstance : BI.Storable (upEmb : UEmb _ 𝕄) (bandPts d (Fin.cast nSub_zero i) (onesBuf d)))

end Cert.Proof.KI

end
-- ==== Proof.Ideal.Bodies.lean ====
/-
  The two TensorCore kernels' bodies as triples: the first fills its 2048x512 block with 0.0; the second
  fills the first 512 rows of its 2048x512 block with the 512x512 block it reads and the other 1536 rows with 0.0.
-/
import proofs.«211883_g61933428412881_cont_9to1_m_917_22_alg».proof.Proof.Ideal.Common
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Writes
import Idealize.ShloMosaic.Lib.ValueIdx
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)

variable {F : FTy → Type} [FloatOps F]

local notation "𝕄" => MT nD τ sig (HIx 1) (Elt F) ℕ UU ℕ

/-! ## The blocks the kernels leave -/

/-- A 2048x512 block of 0.0. -/
def zeroBlk : Vec F S2048x512 .f32 := fun _ => zeroF
/-- A 2048x512 block whose first 512 rows are the rows of `x` and whose other rows hold 0.0. -/
def mergeBlk (x : Vec F S512x512 .f32) : Vec F S2048x512 .f32 :=
  fun j => if h : (j 0).val < 512 then x (ix2 ⟨(j 0).val, h⟩ (j 1)) else zeroF

abbrev r1_0 : Rect S2048x512 := Rect.unit (s := S2048x512) ![0, 0] S2048x512.size inb_S2048x512_S2048x512_0_0
abbrev r2_0 : Rect S512x512 := Rect.unit (s := S512x512) ![0, 0] S512x512.size inb_S512x512_S512x512_0_0
abbrev r2_a : Rect S2048x512 := Rect.unit (s := S2048x512) ![0, 0] S512x512.size inb_S2048x512_S512x512_0_0
abbrev r2_b : Rect S2048x512 := Rect.unit (s := S2048x512) ![512, 0] S1536x512.size inb_S2048x512_S1536x512_512_0

theorem cover1 (p0 : r1_0.shape.Idx → Elt F .f32) (y : S2048x512.Idx) :
    ∃ pc ∈ ([⟨r1_0, p0⟩] : List (View.Piece (Elt F) S2048x512 .f32)), y ∈ pc.1.set :=
  View.cover_of_tiled [⟨r1_0, p0⟩] S2048x512.size (by rfl) y

theorem cover2 (pa : r2_a.shape.Idx → Elt F .f32) (pb : r2_b.shape.Idx → Elt F .f32) (y : S2048x512.Idx) :
    ∃ pc ∈ ([⟨r2_b, pb⟩, ⟨r2_a, pa⟩] : List (View.Piece (Elt F) S2048x512 .f32)), y ∈ pc.1.set :=
  by
  by_cases h : (y 0).val < 512
  · refine ⟨⟨r2_a, pa⟩, by simp, ?_⟩
    rw [Rect.mem_set_unit]
    intro a
    match a with
    | ⟨0, _⟩ => exact ⟨Nat.zero_le _, by show (y 0).val < 0 + 512; omega⟩
    | ⟨1, _⟩ => exact ⟨Nat.zero_le _, by have := Idealize.ShloMosaic.ValueIdx.idx2_lt1 y; show (y 1).val < 0 + 512; omega⟩
  · refine ⟨⟨r2_b, pb⟩, by simp, ?_⟩
    rw [Rect.mem_set_unit]
    intro a
    match a with
    | ⟨0, _⟩ => exact ⟨by show 512 ≤ (y 0).val; omega, by have := Idealize.ShloMosaic.ValueIdx.idx2_lt0 y; show (y 0).val < 512 + 1536; omega⟩
    | ⟨1, _⟩ => exact ⟨Nat.zero_le _, by have := Idealize.ShloMosaic.ValueIdx.idx2_lt1 y; show (y 1).val < 0 + 512; omega⟩

/-! ## The first kernel: a block of zeros -/

theorem sound_kernel1 (c : Dev nD) (E : Set ℕ) (i : grid1.Coords) (arg1 : Memref sig .tc .vmem S2048x512 .f32) (harg1 : arg1.IsWhole)
    (K' : PUnit → sProp 𝕄) :
    iprop((∃ d, owns (c : Thread nD τ) arg1 fullShare d)
        ∗ (owns (c : Thread nD τ) arg1 fullShare (zeroBlk (F := F)) -∗ K' ⟨⟩))
      ⊢ wp frame (wpE (defs₀ (F := F)) Variants.none c none) E (cc1__tc_zeros_body i arg1 harg1) K' := by
  simp only [cc1__tc_zeros_body_eq_skeleton]; unfold cc1__tc_zeros_body_skel
  unfold owns
  iintro ⟨⟨%d1, %f1, -, H1⟩, Hk⟩
  sl_exec
  sl_step
  iapply Hk
  iexists _; isplitr
  swap; · iexact H1
  ipureintro
  funext y
  refine View.read_writes_apply_of_pieces _ _ (zeroBlk (F := F)) _ (fun p hp x => ?_) y (cover1 _ y)
  rw [List.mem_singleton] at hp; subst hp; rfl

/-! ## The second kernel: the block read on top, zeros below -/

theorem sound_kernel2 (c : Dev nD) (E : Set ℕ) (i : grid2.Coords) (arg1 : Memref sig .tc .hbm S65536x512 .f32) (harg1 : arg1.IsWhole)
    (arg2 : Memref sig .tc .vmem S512x512 .f32) (harg2 : arg2.IsWhole) (arg3 : Memref sig .tc .vmem S2048x512 .f32) (harg3 : arg3.IsWhole)
    (x0 : Vec F S512x512 .f32) (K' : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (mergeBlk x0)) -∗ K' ⟨⟩))
      ⊢ wp frame (wpE (defs₀ (F := F)) Variants.none c none) E (cc2__merge_body i arg1 harg1 arg2 harg2 arg3 harg3) K' := by
  simp only [cc2__merge_body_eq_skeleton]; unfold cc2__merge_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  funext y
  refine View.read_writes_apply_of_pieces _ _ (mergeBlk (View.read (Elt F) arg2.view f0)) _ (fun p hp x => ?_) y (cover2 _ _ y)
  rcases List.mem_cons.mp hp with rfl | hp
  · have hge : ¬ ((r2_b.emb x) 0).val < 512 := by
      have e : ((r2_b.emb x) 0).val = 512 + 1 * (x 0).val := rfl
      omega
    dsimp only
    unfold mergeBlk
    rw [dif_neg hge]; rfl
  · rw [List.mem_singleton] at hp; subst hp
    have hx : (x 0).val < 512 := (x 0).isLt
    have hlt : ((r2_a.emb x) 0).val < 512 := by
      have e : ((r2_a.emb x) 0).val = 0 + 1 * (x 0).val := rfl
      omega
    dsimp only
    unfold mergeBlk k2_pay1
    rw [dif_pos hlt, shapeCast_self]
    show View.read (Elt F) arg2.view f0 (r2_0.toLoadRect.idx x) = _
    congr 1
    funext a
    apply Fin.ext
    match a with
    | ⟨0, _⟩ => rfl
    | ⟨1, _⟩ => rfl

end Cert.Proof.KI

end
-- ==== Proof.Ideal.Regions.lean ====
/-
  The two pipelines' proof data. Pipeline 0 (31 points) writes a block of 0.0 at block row t + 1 of its array;
  pipeline 1 (one point) reads the 512x512 array whole and writes, at block row 0 of its array, that block on top
  of 1536 rows of 0.0. Each is stated at the contents `V` the TensorCore's buffers hold when the region is entered
  and at a bound `B` on the pairs the core's waits have recorded.
-/
import proofs.«211883_g61933428412881_cont_9to1_m_917_22_alg».proof.Proof.Ideal.Common
import proofs.«211883_g61933428412881_cont_9to1_m_917_22_alg».proof.Proof.Ideal.Bodies

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Regions

variable (V : (c : Dev nD) → (b : Ref sig .tc) → Buf (Elt F) ((c : Thread nD τ).loc b))
variable (B : Set (SemLoc sig × HIx 1))

/-- A region's invariant: the core's scoped buffers no window stages, at some contents each, and its generator
    register at some state. Neither kernel touches them. -/
def ΦR {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-! ## Pipeline 0: blocks of zeros -/

def dat1 (c : Dev nD) : Dat τ (Elt F) (HIx 1) ℕ UU ℕ cfg1 c where
  A w := V c (Pipeline.arrRef spec1 w)
  after w t := match w with
    | ⟨0, _⟩ => zeroBlk
  Φ _ := ΦR (F := F) spec1 c
  q _ := fullShare
  owed _ := 0
  recorded _ := B

theorem A_eq1 (c : Dev nD) (w : Fin cfg1.W) : (dat1 V B c).A w = V c (Pipeline.arrRef spec1 w) := by
  dsimp only [dat1]
theorem after1_0 (c : Dev nD) (t : Fin cfg1.N) : (dat1 V B c).after 0 t = zeroBlk := by dsimp only [dat1]

def bodyPre1 (c : Dev nD) (t : Fin cfg1.N) : sProp 𝕄 :=
  iprop((dat1 V B c).Φ t.castSucc ∗ (dat1 V B c).owesAt none t.castSucc
    ∗ (∃ d, owns (c : Thread nD τ) (st1_0 t) fullShare ((dat1 V B c).before 0 t d)))

def bodyPost1 (c : Dev nD) (t : Fin cfg1.N) : sProp 𝕄 :=
  iprop((dat1 V B c).Φ t.succ ∗ (dat1 V B c).owesAt none t.succ
    ∗ owns (c : Thread nD τ) (st1_0 t) fullShare ((dat1 V B c).after 0 t))

theorem sound_body1 (c : Dev nD) (t : Fin cfg1.N) :
    bodyPre1 V B c t ⊢ wp frame (wpE (defs₀ (F := F)) Variants.none c none) Set.univ (bodyAt1 t) (fun _ => bodyPost1 V B c t) := by
  unfold bodyPre1 bodyPost1 bodyAt1
  rw [show (dat1 V B c).Φ t.succ = (dat1 V B c).Φ t.castSucc from rfl,
    show (dat1 V B c).owesAt none t.succ = (dat1 V B c).owesAt none t.castSucc from rfl,
    after1_0]
  iintro ⟨HΦ, Ho, ⟨%d0, H0⟩⟩
  iapply (sound_kernel1 c Set.univ _ _ _ _)
  isplitl [H0]; · iexists _; iexact H0
  iintro H0
  isplitl [HΦ]; · iexact HΦ
  isplitl [Ho]; · iexact Ho
  iexact H0

theorem body_obligation1 (c : Dev nD) : BodyObligation (dat1 (F := F) V B c) (defs₀ (F := F)) Variants.none none Set.univ := fun t => by
  rw [bigSep_W1, bigSep_W1]
  exact sound_body1 V B c t

/-! ## Pipeline 1: the 512x512 block on top of zeros -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => mergeBlk (iblk2 V c 0 t)
  Φ _ := ΦR (F := F) spec2 c
  q _ := fullShare
  owed _ := 0
  recorded _ := B

theorem A_eq2 (c : Dev nD) (w : Fin cfg2.W) : (dat2 V B c).A w = V c (Pipeline.arrRef spec2 w) := by
  dsimp only [dat2]
theorem after2_0 (c : Dev nD) (t : Fin cfg2.N) : (dat2 V B c).after 0 t = iblk2 V c 0 t := by dsimp only [dat2]
theorem after2_1 (c : Dev nD) (t : Fin cfg2.N) : (dat2 V B c).after 1 t = mergeBlk (iblk2 V c 0 t) := by dsimp only [dat2]

theorem before2_0 (c : Dev nD) (t : Fin cfg2.N) (d) : (dat2 V B c).before 0 t d = iblk2 V c 0 t :=
  before2_0_of V (dat2 V B c) (A_eq2 V B c 0) (after2_0 V B c) t d

def bodyPre2 (c : Dev nD) (t : Fin cfg2.N) : sProp 𝕄 :=
  iprop((dat2 V B c).Φ t.castSucc ∗ (dat2 V B c).owesAt none t.castSucc
    ∗ (∃ d, owns (c : Thread nD τ) (st2_0 t) fullShare ((dat2 V B c).before 0 t d))
    ∗ (∃ d, owns (c : Thread nD τ) (st2_1 t) fullShare ((dat2 V B c).before 1 t d)))

def bodyPost2 (c : Dev nD) (t : Fin cfg2.N) : sProp 𝕄 :=
  iprop((dat2 V B c).Φ t.succ ∗ (dat2 V B c).owesAt none t.succ
    ∗ owns (c : Thread nD τ) (st2_0 t) fullShare ((dat2 V B c).after 0 t)
    ∗ owns (c : Thread nD τ) (st2_1 t) fullShare ((dat2 V B c).after 1 t))

theorem sound_body2 (c : Dev nD) (t : Fin cfg2.N) :
    bodyPre2 V B c t ⊢ wp frame (wpE (defs₀ (F := F)) Variants.none c none) Set.univ (bodyAt2 t) (fun _ => bodyPost2 V B c t) := by
  unfold bodyPre2 bodyPost2 bodyAt2
  simp only [before2_0]
  rw [show (dat2 V B c).Φ t.succ = (dat2 V B c).Φ t.castSucc from rfl,
    show (dat2 V B c).owesAt none t.succ = (dat2 V B c).owesAt none t.castSucc from rfl,
    after2_0, after2_1]
  iintro ⟨HΦ, Ho, ⟨%d0, H0⟩, ⟨%d1, H1⟩⟩
  iapply (sound_kernel2 c Set.univ _ _ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V B c) (defs₀ (F := F)) Variants.none none Set.univ := fun t => by
  rw [bigSep_W2, bigSep_W2]
  exact sound_body2 V B c t

end Regions

end Cert.Proof.KI

end
-- ==== Proof.Ideal.Segs.lean ====
/-
  @main after the SparseCore call as three segments: the region of pipeline 0, the copy of its array into the
  result's buffer, the region of pipeline 1 — with the TensorCore's buffer contents at each boundary, a fold from the
  launch memory in which the 512x512 array already holds 1.0.
-/
import proofs.«211883_g61933428412881_cont_9to1_m_917_22_alg».proof.Proof.Ideal.Common
import proofs.«211883_g61933428412881_cont_9to1_m_917_22_alg».proof.Proof.Ideal.Regions

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The contents at the boundaries -/

abbrev v0' : DevRef τ sig := Proc.devRef .tc (main_v0 : Ref sig .tc)

/-- The pairs a TensorCore's waits may have recorded: those at or below the level of the one call's handshakes. -/
def Bd (c : Dev nD) : Set (SemLoc sig × HIx 1) := {p | (K (F := F)).lev (T c, p.1) p.2 ≤ 8}

/-- After the SparseCore call: the launch memory with the 512x512 array holding 1.0. -/
def W1 (c : Dev nD) : Valuation τ sig (Elt F) := Function.update (fun b => m (c, b)) v0' (onesBuf c)
abbrev V1 : (c : Dev nD) → (b : Ref sig .tc) → Buf (Elt F) ((c : Thread nD τ).loc b) := fun c b => W1 m c b
/-- After pipeline 0. -/
def W2 (c : Dev nD) : Valuation τ sig (Elt F) :=
  Pipeline.withArrays spec1 c (W1 m c) fun w => (dat1 (V1 m) (Bd (F := F) c) c).arrAt w cfg1.N
abbrev V2 : (c : Dev nD) → (b : Ref sig .tc) → Buf (Elt F) ((c : Thread nD τ).loc b) := fun c b => W2 m c b
/-- The copy of pipeline 0's array into the result's buffer. -/
abbrev copyOps : List (HloOp τ sig (Elt F)) := [StableHlo.unary main_v1 main_v2 id]
abbrev W3 : Dev nD → Valuation τ sig (Elt F) := fun c => StableHlo.after copyOps (W2 m c)
abbrev V3 : (c : Dev nD) → (b : Ref sig .tc) → Buf (Elt F) ((c : Thread nD τ).loc b) := fun c b => W3 m c b
/-- After pipeline 1. -/
def W4 (c : Dev nD) : Valuation τ sig (Elt F) :=
  Pipeline.withArrays spec2 c (W3 m c) fun w => (dat2 (V3 m) (Bd (F := F) c) c).arrAt w cfg2.N
abbrev V4 : (c : Dev nD) → (b : Ref sig .tc) → Buf (Elt F) ((c : Thread nD τ).loc b) := fun c b => W4 m c b

theorem W2_arr (c : Dev nD) (w : Fin cfg1.W) :
    W2 m c (Proc.devRef .tc (Pipeline.arrRef spec1 w)) = (dat1 (V1 m) (Bd (F := F) c) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem hF1 (c : Dev nD) (w : Fin cfg1.W) : (dat1 (V1 m) (Bd (F := F) c) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

theorem W4_arr (c : Dev nD) (w : Fin cfg2.W) :
    W4 m c (Proc.devRef .tc (Pipeline.arrRef spec2 w)) = (dat2 (V3 m) (Bd (F := F) c) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
theorem hF2 (c : Dev nD) (w : Fin cfg2.W) : (dat2 (V3 m) (Bd (F := F) c) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The proof data family and the thread state -/

def pdats : (p : Fin 2) → (c : Dev nD) → Dat τ (Elt F) (HIx 1) ℕ UU ℕ (Pipeline.pin (pcfgs (F := F)) adm p) c
  | ⟨0, _⟩ => fun c => dat1 (V1 m) (Bd (F := F) c) c
  | ⟨1, _⟩ => fun c => dat2 (V3 m) (Bd (F := F) c) c

abbrev Lk : GSem nD τ sig → Finset (HIx 1) := (K (F := F)).L
abbrev lvk : GSem nD τ sig → HIx 1 → ℕ := (K (F := F)).lev

/-- What rides beside the buffers through every segment: the generator register at some state, and the core owing
    nothing, its recorded pairs at or below the call's handshakes. -/
abbrev Rr (c : Dev nD) : sProp 𝕄 :=
  iprop((∃ r, prngReg c r) ∗ ∃ W, ⌜(K (F := F)).WBelow (T c) W 8⌝ ∗ owes (c : Thread nD τ) (0 : CellTallies nD τ sig (HIx 1)) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (Lk (F := F)) (lvk (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Rr (F := F))

theorem copyOps_sub : (copyOps : List (HloOp τ sig (Elt F))).Forall fun op => op.bufs ⊆ StableHlo.tcRefs τ sig :=
  StableHlo.unary_bufs_sub ..
theorem copyOps_fresh : (copyOps : List (HloOp τ sig (Elt F))).Forall fun op => op.fresh = ∅ := by
  simp only [List.Forall]; repeat' constructor

/-! ## The regions as segments -/

set_option backward.isDefEq.respectTransparency.types false in
/-- The region of pipeline 0: its arrays split out of the unscoped buffers at the entry contents and put back at the
    exit contents; the generator register into the invariant and out; nothing owed, the recorded pairs within the bound. -/
def reg1 : Pipeline.RegionSeg (pcfgs (F := F)) adm (pdats m) (none : HIx 1) defs₀ 𝒱₀ (Lk (F := F)) (lvk (F := F)) 0 where
  win := launch1.win.to₀
  block_pos := launch1.block_pos
  stage_whole := launch1.stage_whole
  K := PEmpty
  osem k := k.elim
  ho := Pipeline.OwnSemFacts.none _
  hbody c := (body_obligation1 (V1 m) (Bd (F := F) c) c).loose
  hwaits := Pipeline.hwaits_of_owed_zero _ _ _ _ (Lk (F := F)) (lvk (F := F)) 0 fun _ _ => rfl
  pre c := iprop(StableHlo.held (c : Thread nD τ) (Pipeline.ucRefs τ sig) (W1 m c) ∗ Rr (F := F) c)
  post c := iprop(StableHlo.held (c : Thread nD τ) (Pipeline.ucRefs τ sig) (W2 m c) ∗ Rr (F := F) c)
  X c := iprop(∃ r, prngReg c r)
  Y c := iprop(∃ r, prngReg c r)
  Z c := Pipeline.unscopedRest (Ix := HIx 1) (Name := ℕ) (U := UU) (Lvl := ℕ) spec1 c (V1 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m 0 c).Φ 0 = ΦR (F := F) spec1 c from rfl]; unfold ΦR
    iintro ⟨Hp, -, Hr⟩
    isplitl [Hr]; · iexact Hr
    iexact Hp
  hout c := by
    rw [Pipeline.ownSems0_none, show (pdats m 0 c).Φ (Fin.last _) = ΦR (F := F) spec1 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V1 m c) (V2 m c) ((pdats m 0 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro p hp
      rcases hW (Finset.mem_coe.mpr hp) with h | ⟨w, s, rfl⟩
      · exact h
      · exact Nat.zero_le _
    iexact HO

set_option backward.isDefEq.respectTransparency.types false in
/-- The region of pipeline 1: its arrays split out of the unscoped buffers at the entry contents and put back at the
    exit contents; the generator register into the invariant and out; nothing owed, the recorded pairs within the bound. -/
def reg2 : Pipeline.RegionSeg (pcfgs (F := F)) adm (pdats m) (none : HIx 1) defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := (body_obligation2 (V3 m) (Bd (F := F) c) c).loose
  hwaits := Pipeline.hwaits_of_owed_zero _ _ _ _ (Lk (F := F)) (lvk (F := F)) 1 fun _ _ => rfl
  pre c := iprop(StableHlo.held (c : Thread nD τ) (Pipeline.ucRefs τ sig) (W3 m c) ∗ Rr (F := F) c)
  post c := iprop(StableHlo.held (c : Thread nD τ) (Pipeline.ucRefs τ sig) (W4 m c) ∗ Rr (F := F) c)
  X c := iprop(∃ r, prngReg c r)
  Y c := iprop(∃ r, prngReg c r)
  Z c := Pipeline.unscopedRest (Ix := HIx 1) (Name := ℕ) (U := UU) (Lvl := ℕ) spec2 c (V3 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m 1 c).Φ 0 = ΦR (F := F) spec2 c from rfl]; unfold ΦR
    iintro ⟨Hp, -, Hr⟩
    isplitl [Hr]; · iexact Hr
    iexact Hp
  hout c := by
    rw [Pipeline.ownSems0_none, show (pdats m 1 c).Φ (Fin.last _) = ΦR (F := F) spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V3 m c) (V4 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro p hp
      rcases hW (Finset.mem_coe.mpr hp) with h | ⟨w, s, rfl⟩
      · exact h
      · exact Nat.zero_le _
    iexact HO

/-- @main after the SparseCore call, in order. -/
abbrev segs : List (Pipeline.Seg (pcfgs (F := F)) adm (pdats m) (none : HIx 1) defs₀ 𝒱₀ (Lk (F := F)) (lvk (F := F))) :=
  [ .region (reg1 m),
    .host (hseg copyOps copyOps_sub copyOps_fresh (W2 m)),
    .region (reg2 m) ]

end Cert.Proof.KI

end
-- ==== Proof.Ideal.Ghost.lean ====
/-
  The launch element of the ghost state. The proof's resource algebra is the product of the handshakes' rounds, the two
  pipelines' rounds and the transfers' counters; at launch the first component is the rounds library's launch element at
  the handshake cells, the second its launch element at the pipelines' staging cells, the third the unit. Owning the
  whole is owning each component through its embedding; the pipelines' component is dealt, per device, into the ghost
  state of the two pipelines' staging cells (each cell's launch state, its owner at round 0, round 0 reached, and the
  duty tokens of the transfers the loops issue); the handshakes' component is kept whole; the call carries nothing else.
-/
import proofs.«211883_g61933428412881_cont_9to1_m_917_22_alg».proof.Proof.Ideal.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch element: the handshake cells' rounds, the staging cells' rounds, no transfer counted. -/
def u₀ : UU := (initOf (K (F := F)).hsCells (K (F := F)).hsToks, (initOf (Pipeline.cells cfgs cellOf_inj) (Pipeline.launchToks cfgs cellOf_inj), 1))

/-- The two pipelines' staging-cell ghost state on device `d`, as the launch deals it. -/
def ghostG (d : Dev nD) : sProp 𝕄 := Pipeline.ghostOn (pcfgs (F := F)) adm EP Finset.univ d

/-- Per device, the cells' ghost state and the duty tokens of every pipeline are the ghost state of all pipelines. -/
theorem ghost_regroup :
    iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
      ⊢ bigSep Finset.univ fun d : Dev nD => ghostG (F := F) d := by
  rw [← bigSep_sep']
  refine bigSep_mono fun c _ => ?_
  unfold ghostG Pipeline.ghostOn Pipeline.PerCore.ghostOn
  rw [bigSep_sep']
  exact BI.Entails.refl _

/-- The pipelines' component of the launch element, owned through its embedding, deals every device the ghost state
    of the staging cells and the duty tokens of the loops' transfers. -/
theorem fund_pipes :
    (BI.own (((Emb.inl : Emb UP (UP × Counters)).trans embR) (initOf (Pipeline.cells cfgs cellOf_inj) (Pipeline.launchToks cfgs cellOf_inj))) : sProp 𝕄)
      ⊢ iprop(|==> ((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄)))) :=
  Pipeline.fund_ghost cfgs (EP (F := F)) cellOf_inj

/-- A separating product of `emp` over any finite index set is `emp`. -/
theorem bigSep_emp_eq {I : Type} (s : Finset I) : (bigSep s fun _ => iprop(emp)) = (iprop(emp) : sProp 𝕄) := bigSep_emp_const s

variable [FloatOps F]

/-- Owning the launch element yields the handshakes' launch element whole, every device's staging-cell ghost state, and
    the nothing the call carries besides. -/
theorem hu₀ : (ownU (u₀ (F := F)) : sProp 𝕄) ⊢ |={Set.univ}=> iprop(BI.own (EH (initOf (K (F := F)).hsCells (K (F := F)).hsToks)) ∗ (bigSep Finset.univ fun d : Dev nD => ghostG (F := F) d) ∗ bigSep Finset.univ fun thr : Thread nD τ => bigSep Finset.univ fun q : Fin 1 => (P (F := F)).x q thr) := by
  unfold u₀
  iintro Hu
  ihave H := (ownU_pair _ _) $$ Hu
  icases H with ⟨HH, HR⟩
  ihave H2 := (own_pair_emb embR _ _) $$ HR
  icases H2 with ⟨HP, -⟩
  imod (fund_pipes (F := F)) $$ HP with ⟨Hg, Ht⟩
  imodintro
  isplitl [HH]; · iexact HH
  isplitl [Hg Ht]
  · iapply (ghost_regroup (F := F))
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp_eq (F := F) _, bigSep_emp_eq]]
  iempintro

end Cert.Proof.KI

end
-- ==== Proof.Ideal.Main.lean ====
/-
  @main on the TensorCore: the SparseCore call hands the 512x512 array out at any contents and takes it back holding
  1.0; the rest of @main is the three segments, run from the boundary valuation in which that array holds 1.0; what is
  left at the end are the argument array and the result's buffer at the last boundary's contents.
-/
import proofs.«211883_g61933428412881_cont_9to1_m_917_22_alg».proof.Proof.Ideal.Common
import proofs.«211883_g61933428412881_cont_9to1_m_917_22_alg».proof.Proof.Ideal.Segs
import proofs.«211883_g61933428412881_cont_9to1_m_917_22_alg».proof.Proof.Ideal.Ghost

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

abbrev a' : DevRef τ sig := Proc.devRef .tc (main_arg0 : Ref sig .tc)
abbrev v2' : DevRef τ sig := Proc.devRef .tc (main_v2 : Ref sig .tc)

/-- The launch valuation of device `d`. -/
abbrev W0 (d : Dev nD) : Valuation τ sig (Elt F) := fun b => m (d, b)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

omit [FloatOps F] in
/-- The unscoped buffers with the 512x512 array's taken out. -/
theorem held_take (d : Dev nD) (W : Valuation τ sig (Elt F)) :
    (StableHlo.held (T d) (Pipeline.ucRefs τ sig) W : sProp 𝕄)
      = iprop(((d, v0') ↦{fullShare} W v0') ∗ StableHlo.held (T d) (Pipeline.ucRefs τ sig \ {v0'}) W) := by
  rw [StableHlo.held_sub_split (T d) (T := {v0'}) (Finset.singleton_subset_iff.mpr (mem_uc main_v0 (by decide))) W]
  congr 1
  unfold StableHlo.held
  rw [bigSep_singleton]

theorem W1_v0 (d : Dev nD) : W1 m d v0' = onesBuf d := Function.update_self _ _ _

theorem held_rest_W1 (d : Dev nD) :
    (StableHlo.held (T d) (Pipeline.ucRefs τ sig \ {v0'}) (W1 m d) : sProp 𝕄) = StableHlo.held (T d) (Pipeline.ucRefs τ sig \ {v0'}) (W0 m d) :=
  StableHlo.held_congr (T d) fun b hb => Function.update_of_ne (fun e => (Finset.mem_sdiff.mp hb).2 (Finset.mem_singleton.mpr e)) _ _

omit [FloatOps F] in
/-- The argument array and the result's buffer out of the unscoped buffers. -/
theorem held_two (d : Dev nD) (W : Valuation τ sig (Elt F)) :
    (StableHlo.held (T d) (Pipeline.ucRefs τ sig) W : sProp 𝕄) ⊢ iprop(((d, a') ↦{fullShare} W a') ∗ ((d, v2') ↦{fullShare} W v2')) := by
  rw [StableHlo.held_sub_split (T d) (T := {a', v2'}) (by
    intro b hb
    rcases Finset.mem_insert.mp hb with rfl | hb
    · exact mem_uc main_arg0 (by decide)
    · rw [Finset.mem_singleton] at hb; subst hb; exact mem_uc main_v2 (by decide)) W]
  unfold StableHlo.held
  rw [SparseCore.bigSep_insert' (by decide), bigSep_singleton]
  exact sep_elim_left

theorem st0_eq (d : Dev nD) : (bigSep Finset.univ fun c : Fin ((K (F := F)).nCore 0) => (P (F := F)).st 0 d c) = iprop(∃ f, v0Pts d f) := by
  show (bigSep (Finset.univ : Finset (Fin 1)) fun c => (P (F := F)).st 0 d c) = _
  rw [show (Finset.univ : Finset (Fin 1)) = {0} by decide, bigSep_singleton]; rfl
theorem dn0_eq (d : Dev nD) : (bigSep Finset.univ fun c : Fin ((K (F := F)).nCore 0) => (P (F := F)).dn 0 d c) = v0Pts d (onesBuf d) := by
  show (bigSep (Finset.univ : Finset (Fin 1)) fun c => (P (F := F)).dn 0 d c) = _
  rw [show (Finset.univ : Finset (Fin 1)) = {0} by decide, bigSep_singleton]; rfl

/-- @main is the SparseCore call followed by the three segments. -/
theorem main_tail (d : Dev nD) :
    main (F := F) d = ((K (F := F)).run d 0 >>= fun _ => SparseCore.liftProg (Pipeline.Seg.run (segs m))) := rfl

/-- The TensorCore's handshake state after the one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
/-- After the one call the TensorCore owes nothing. -/
theorem tcSt_one (d : Dev nD) :
    ((K (F := F)).tcSt EH d 1 : sProp 𝕄)
      = iprop((∃ W, ⌜(K (F := F)).WBelow (T d) W 8⌝ ∗ owes (T d) (0 : CellTallies nD τ sig (HIx 1)) W) ∗ tcRest (F := F) d) := by
  unfold SparseCore.Cfg.tcSt tcRest
  rw [(K (F := F)).Otc_end d (le_refl 1)]

/-- What @main leaves: the argument array and the result's buffer at the last boundary's contents. -/
abbrev FINW (d : Dev nD) : sProp 𝕄 := iprop(((d, a') ↦{fullShare} W4 m d a') ∗ ((d, v2') ↦{fullShare} W4 m d v2'))

set_option backward.isDefEq.respectTransparency.types false in
theorem hmain (κ : GSem nD τ sig → ℕ) (d : Dev nD) :
    iprop((K (F := F)).ctx EH (P (F := F)) κ ∗ (K (F := F)).tcSt EH d 0 ∗ (K (F := F)).tcRes m ρ d ∗ ghostG (F := F) d)
      ⊢ wp frame (wpE ((K (F := F)).defs (D (F := F))) 𝒱 (SparseCore.T d) none) Set.univ (main d)
          fun _ => iprop((K (F := F)).tcSt EH d 1 ∗ FINW m d) := by
  unfold SparseCore.Cfg.tcRes ghostG
  rw [main_tail m d, wp_bind,
    show unscopedBufs d (fun b => m ((SparseCore.T d).loc b)) = StableHlo.held (SparseCore.T d) (Pipeline.ucRefs τ sig) (W0 m d)
      from Pipeline.unscopedBufs_held d (W0 m d), held_take]
  iintro ⟨#Hctx, Hst, ⟨Hb, ⟨H0, Hrest⟩, -, Hprng⟩, Hg⟩
  iapply ((K (F := F)).wp_run (D (F := F)) 𝒱 (EH := EH) (P := P (F := F)) κ d 0) $$ [Hst H0 Hb Hrest Hprng Hg]
  isplitr; · iexact Hctx
  isplitl [Hst]; · iexact Hst
  isplitl [H0]
  · rw [st0_eq]; iexists _; iexact H0
  rw [show (((0 : Fin 1) : ℕ) + 1) = 1 from rfl]
  iintro ⟨Hst, Hdn⟩
  ihave Hdn' := (Entails.of_eq (dn0_eq (F := F) d)) $$ Hdn
  ihave Hst' := (Entails.of_eq (tcSt_one (F := F) d)) $$ Hst
  icases Hst' with ⟨⟨%W, %hW, HO⟩, Htc⟩
  ihave Hlev := (SparseCore.Cfg.ctx_levAts κ) $$ Hctx
  iapply ((K (F := F)).wp_liftProg (D (F := F)) 𝒱 (SparseCore.T d) Set.univ none (Pipeline.Seg.run (segs m)) _)
  iapply (Pipeline.wp_segs (pcfgs (F := F)) adm (pdats m) (none : HIx 1) cellOf_inj EP defs₀ 𝒱₀ (Lk (F := F)) (lvk (F := F)) d (segs m) Finset.univ
      (fun c => iprop(StableHlo.held (c : Thread nD τ) (Pipeline.ucRefs τ sig) (W1 m c) ∗ Rr (F := F) c))
      (fun c => iprop(StableHlo.held (c : Thread nD τ) (Pipeline.ucRefs τ sig) (W4 m c) ∗ Rr (F := F) c))
      (by simp only [segs, Pipeline.Seg.pipes_host, Pipeline.Seg.pipes_region, Pipeline.Seg.pipes_nil]; decide)
      (fun p _ => Finset.mem_univ p)
      ⟨fun _ => .rfl, fun _ => .rfl, fun _ => .rfl, fun _ => .rfl⟩)
  isplitl [Htc]
  · iintro ⟨Hb, Hh, Hp, %W', %hW', HO⟩
    isplitl [Htc HO]
    · rw [tcSt_one]
      isplitl [HO]
      · iexists W'; isplitr; · ipureintro; exact hW'
        iexact HO
      iexact Htc
    · iapply (held_two d (W4 m d)); iexact Hh
  isplitl [Hb]; · iexact Hb
  isplitl [Hrest Hdn' Hprng HO]
  · isplitl [Hrest Hdn']
    · rw [held_take, W1_v0, held_rest_W1]
      isplitl [Hdn']; · iexact Hdn'
      iexact Hrest
    · isplitl [Hprng]; · iexists _; iexact Hprng
      iexists W; isplitr; · ipureintro; exact hW
      iexact HO
  isplitr; · iexact Hlev
  iexact Hg

end Cert.Proof.KI

end
-- ==== Proof.Ideal.Tile.lean ====
/-
  The SparseCore tile's task: tile `i` is handed band `i` of the 512x512 array (rows `32 i … 32 i + 31`) at any
  contents, fills its 32x512 scratch with the word 1.0 (a loop of 32 trips, trip `k` storing the 32 pieces of 16
  columns of row `k`), copies the scratch onto its band and waits for the copy: the band comes back holding 1.0.
  Beside it, how the whole array splits into the sixteen bands and is joined from them.
-/
import proofs.«211883_g61933428412881_cont_9to1_m_917_22_alg».proof.Proof.Ideal.Common
import Idealize.ShloMosaic.Lib.Writes
import Idealize.ShloMosaic.Lib.Exec
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The sixteen bands -/

theorem bandSet_eq (i : Fin 16) : bandSet i = (band i).set := by
  show ((View.whole (main_v0_scv : Ref sig .scVector)).slice (band i)).set = _
  rw [View.set_slice]; exact Finset.map_refl
theorem bands_disjoint : ∀ i ∈ (Finset.univ : Finset (Fin 16)), ∀ j ∈ (Finset.univ : Finset (Fin 16)), i ≠ j → Disjoint (bandSet i) (bandSet j) :=
  fun i _ j _ h => by rw [bandSet_eq, bandSet_eq]; exact Rect.part_disjoint hdiv h
theorem bands_cover : (Finset.univ : Finset (Fin 16)).biUnion bandSet = Finset.univ :=
  (Finset.biUnion_congr rfl fun i _ => bandSet_eq i).trans (Rect.biUnion_part hdiv)

/-- The whole array at `f` is its sixteen bands, each at `f`. -/
theorem v0Pts_bands (d : Dev nD) (f : Buf (Elt F) (v0Loc d)) :
    (v0Pts d f : sProp 𝕄) = bigSep Finset.univ fun i : Fin 16 => bandPts d i f := by
  unfold v0Pts bandPts
  rw [← pointsTo_biUnion Finset.univ (ℓ := v0Loc d) bandSet bands_disjoint, bands_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem band_any (d : Dev nD) (i : Fin 16) (f : Buf (Elt F) (v0Loc d)) : (bandPts d i f : sProp 𝕄) ⊢ iprop(∃ f, bandPts d i f) := by
  iintro Hi; iexists f; iexact Hi
/-- Bands held at one contents are bands held at some contents. -/
theorem bands_any (d : Dev nD) (f : Buf (Elt F) (v0Loc d)) :
    (bigSep Finset.univ fun i : Fin 16 => bandPts d i f) ⊢ (bigSep Finset.univ fun i : Fin 16 => iprop(∃ f, bandPts d i f) : sProp 𝕄) :=
  bigSep_mono fun i _ => band_any d i f

variable [FloatOps F]

/-- The whole array at any contents goes to the tiles band by band; sixteen bands of 1.0 are the whole array of 1.0. -/
theorem vecSplit : (K (F := F)).VecSplit' (P (F := F)) 0 := by
  intro d c
  show iprop(∃ f, v0Pts d f) ⊢ |={Set.univ}=> iprop(
      (bigSep Finset.univ fun i : Fin ((K (F := F)).nSub 0) => iprop(∃ f, bandPts d (Fin.cast nSub_zero i) f))
      ∗ ((bigSep Finset.univ fun i : Fin ((K (F := F)).nSub 0) => bandPts d (Fin.cast nSub_zero i) (onesBuf d)) -∗ v0Pts d (onesBuf d)))
  rw [bigSep_tasks (F := F) (fun i => iprop(∃ f, bandPts d i f)), bigSep_tasks (F := F) (fun i => bandPts d i (onesBuf d))]
  iintro ⟨%f, H⟩
  ihave H' := (Entails.of_eq (v0Pts_bands (F := F) d f)) $$ H
  imodintro
  isplitl [H']
  · iapply (bands_any (F := F) d f); iexact H'
  iintro Htd
  iapply (Entails.of_eq (v0Pts_bands (F := F) d (onesBuf d)).symm); iexact Htd

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev c0cell (c : Fin τ.nSC) (i : Fin τ.nSub) : GSem nD τ sig := (V d c i, .dma cc0_scratch1.sem)

/-- The band as the task slices it out of the array. -/
abbrev bandK (L : grid0.Coords) : Rect S512x512 := Rect.unit (s := S512x512) (k0_off33 L) S32x512.size (k0_off33_inb L)
abbrev oBandK (L : grid0.Coords) : Memref sig .scVector .hbm S32x512 .f32 :=
  (oV : Memref sig .scVector .hbm S512x512 .f32).slice (bandK L) (fun _ => rfl)

omit [FloatOps F] in
theorem bound_zero : grid0.bound 0 = 1 := rfl

omit [FloatOps F] in
theorem bandK_eq : bandK L = band (jL L) := by
  have h0 : (L 0).val = 0 := by have h : (L 0).val < 1 := (L 0).isLt; omega
  unfold bandK band Rect.part Rect.block
  congr 1 <;> funext a
  · rw [k0_off33_eq]
    match a with
    | 0 => simp [Shape.partIx, Shape.partSize, h0]; omega
    | 1 => simp [Shape.partIx, Shape.partSize]
  · match a with
    | 0 => simp [Shape.partSize]
    | 1 => simp [Shape.partSize]

omit [FloatOps F] in
theorem set_oBandK : (oBandK L).view.set = bandSet (jL L) := by
  show ((oV : Memref sig .scVector .hbm S512x512 .f32).view.slice (bandK L)).set
    = ((oV : Memref sig .scVector .hbm S512x512 .f32).view.slice (band (jL L))).set
  rw [bandK_eq]

omit [FloatOps F] in
theorem pts_oBandK (f : Buf (Elt F) (v0Loc d)) :
    ((oBandK L).view.loc (V d (cV L) (jV L)) ↦[(oBandK L).view.set]{fullShare} f : sProp 𝕄) = v0Loc d ↦[bandSet (jL L)]{fullShare} f := by
  rw [set_oBandK]
omit [FloatOps F] in
theorem pts_sW (f : Buf (Elt F) ((V d (cV L) (jV L)).loc cc0_scratch0)) :
    ((sW : Memref sig .scVector .vmem S32x512 .f32).view.loc (V d (cV L) (jV L)) ↦{fullShare} f : sProp 𝕄) = (V d (cV L) (jV L)).loc cc0_scratch0 ↦{fullShare} f := rfl

omit [FloatOps F] in
theorem ownSems0_V :
    (ownSems0 (V d (cV L) (jV L)) : sProp 𝕄)
      = iprop(semVal (c0cell d (cV L) (jV L)) 0 ∗ bigSep ((ownCells (V d (cV L) (jV L))).erase (c0cell d (cV L) (jV L))) fun g => semVal g 0) := by
  unfold SparseCore.Cfg.ownSems0
  exact SparseCore.bigSep_erase' ((mem_ownCells (g := c0cell d (cV L) (jV L))).mpr ⟨rfl, by
    show (SemLoc.dma cc0_scratch1.sem : SemLoc sig).isScoped .scVector = true; decide⟩)

omit [FloatOps F] in
/-- The scratch is among the subcore's own buffers: it is that one, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## A row of the scratch filled by its 32 pieces -/

omit [FloatOps F] in
/-- A 1x16 piece at offsets `![r, c]` is the columns `c … c + 15` of row `r`. -/
theorem mem_piece {off : Fin 2 → Nat} {inb : ∀ a, off a + S1x16.size a ≤ S32x512.size a} {r c : Nat} (h : off = ![r, c]) (y : S32x512.Idx) :
    y ∈ (Rect.unit (s := S32x512) off S1x16.size inb).set ↔ (y 0).val = r ∧ c ≤ (y 1).val ∧ (y 1).val < c + 16 := by
  subst h
  have h0 : S1x16.size 0 = 1 := rfl
  have h1 : S1x16.size 1 = 16 := rfl
  rw [Rect.mem_set_unit, Fin.forall_fin_two]
  simp only [Matrix.cons_val_zero, Matrix.cons_val_one, Matrix.head_cons, h0, h1]
  omega

/-- The first columns of the 32 pieces of a row, last stored first. -/
abbrev cols32 : List Nat := [496, 480, 464, 448, 432, 416, 400, 384, 368, 352, 336, 320, 304, 288, 272, 256, 240, 224, 208, 192, 176, 160, 144, 128, 112, 96, 80, 64, 48, 32, 16, 0]
omit [FloatOps F] in
theorem cols32_mem : ∀ q : Fin 32, 16 * q.val ∈ cols32 := by decide
omit [FloatOps F] in
theorem cols32_cover (n : Nat) (hn : n < 512) : ∃ c ∈ cols32, c ≤ n ∧ n < c + 16 :=
  ⟨16 * (n / 16), cols32_mem ⟨n / 16, by omega⟩, by omega, by omega⟩

/-- Every piece of the list is a 1x16 piece of row `r` holding 1.0; their first columns are listed beside them. -/
inductive RowPieces (r : Nat) : List (View.Piece (Elt F) S32x512 .f32) → List Nat → Prop
  | nil : RowPieces r [] []
  | cons {p : View.Piece (Elt F) S32x512 .f32} {L : List (View.Piece (Elt F) S32x512 .f32)} {c : Nat} {C : List Nat} :
      (∀ x, p.2 x = (oneF : F .f32)) → (∀ y : S32x512.Idx, y ∈ p.1.set ↔ (y 0).val = r ∧ c ≤ (y 1).val ∧ (y 1).val < c + 16) →
      RowPieces r L C → RowPieces r (p :: L) (c :: C)

theorem RowPieces.vals {r : Nat} {L : List (View.Piece (Elt F) S32x512 .f32)} {C : List Nat} (h : RowPieces (F := F) r L C) :
    ∀ p ∈ L, ∀ x : p.1.shape.Idx, p.2 x = (fun _ : S32x512.Idx => (oneF : F .f32)) (p.1.emb x) := by
  induction h with
  | nil => intro p hp; exact absurd hp List.not_mem_nil
  | cons hv _ _ ih =>
    intro p hp
    rcases List.mem_cons.mp hp with rfl | hp
    · exact hv
    · exact ih p hp

theorem RowPieces.row {r : Nat} {L : List (View.Piece (Elt F) S32x512 .f32)} {C : List Nat} (h : RowPieces (F := F) r L C) :
    ∀ p ∈ L, ∀ y : S32x512.Idx, y ∈ p.1.set → (y 0).val = r := by
  induction h with
  | nil => intro p hp; exact absurd hp List.not_mem_nil
  | cons _ hm _ ih =>
    intro p hp y hy
    rcases List.mem_cons.mp hp with rfl | hp
    · exact ((hm y).mp hy).1
    · exact ih p hp y hy

theorem RowPieces.cover {r : Nat} {L : List (View.Piece (Elt F) S32x512 .f32)} {C : List Nat} (h : RowPieces (F := F) r L C)
    (y : S32x512.Idx) (hy : (y 0).val = r) : (∃ c ∈ C, c ≤ (y 1).val ∧ (y 1).val < c + 16) → ∃ p ∈ L, y ∈ p.1.set := by
  induction h with
  | nil => rintro ⟨c, hc, -⟩; exact absurd hc List.not_mem_nil
  | cons _ hm _ ih =>
    rintro ⟨c, hc, hlo, hhi⟩
    rcases List.mem_cons.mp hc with rfl | hc
    · exact ⟨_, List.mem_cons_self, (hm y).mpr ⟨hy, hlo, hhi⟩⟩
    · obtain ⟨p, hp, hmem⟩ := ih ⟨c, hc, hlo, hhi⟩
      exact ⟨p, List.mem_cons_of_mem _ hp, hmem⟩

/-- After the 32 pieces of row `r` are stored, row `r` reads 1.0 and every other row what it held. -/
theorem read_row_fill {κ : Kind} {sp : Space} (v : View sig κ sp S32x512 .f32) (g : v.ty.Contents (Elt F)) {r : Nat}
    {L : List (View.Piece (Elt F) S32x512 .f32)} {C : List Nat} (h : RowPieces (F := F) r L C)
    (hC : ∀ n, n < 512 → ∃ c ∈ C, c ≤ n ∧ n < c + 16) (y : S32x512.Idx) :
    v.read (Elt F) (v.writes (Elt F) g L) y = if (y 0).val = r then (oneF : F .f32) else v.read (Elt F) g y := by
  by_cases hy : (y 0).val = r
  · rw [if_pos hy]
    exact View.read_writes_apply_of_pieces v g (fun _ => (oneF : F .f32)) L h.vals y (h.cover y hy (hC _ (y 1).isLt))
  · rw [if_neg hy]
    exact View.read_writes_apply_of_forall_not_mem v g y L fun p hp hmem => hy (h.row p hp y hmem)

/-- Before trip `k` the scratch holds 1.0 on its rows below `k`. -/
def inv (k : Nat) (_ : Unit) : sProp 𝕄 :=
  iprop(∃ g : Buf (Elt F) ((V d (cV L) (jV L)).loc cc0_scratch0),
    ⌜∀ y : S32x512.Idx, (y 0).val < k → (sW : Memref sig .scVector .vmem S32x512 .f32).view.read (Elt F) g y = oneF⌝
      ∗ (V d (cV L) (jV L)).loc cc0_scratch0 ↦{fullShare} g)

omit [FloatOps F] in
theorem trips_eq : Scf.trips k0_t1_loop.lb k0_t1_loop.ub k0_t1_loop.st = 32 := by decide

/-- What the copy lands in the band, the scratch holding 1.0 everywhere, is the array of 1.0 there. -/
theorem landed_ones (f : Buf (Elt F) (v0Loc d)) (w : S32x512.Idx → Elt F .f32) (hw : ∀ x, w x = (oneF : F .f32)) :
    ∀ i ∈ bandSet (jL L), (oBandK L).view.writes (Elt F) f [⟨Rect.whole S32x512, w⟩] i = onesBuf d i := by
  intro i hi
  rw [← set_oBandK] at hi
  obtain ⟨y, -, rfl⟩ := Finset.mem_map.mp hi
  obtain ⟨x, rfl⟩ := (Rect.whole S32x512).exists_idx_of_mem (show y ∈ (Rect.whole S32x512).set by rw [Rect.set_whole]; exact Finset.mem_univ y)
  have h1 := View.read_writes_cons_emb (oBandK L).view f (Rect.whole S32x512) w [] x
  rw [View.read_apply] at h1
  exact (cast_eq _ _).symm.trans (h1.trans (hw x))

/-- The task on vector subcore `(L 0, L 1)` of device `d`: the scratch filled with 1.0 piece by piece, copied onto
    band `L 1`, the copy waited for. -/
theorem tile_body (hF : (K (F := F)).Facts) (O : CellTallies nD τ sig (HIx 1)) (W : Waits sig (HIx 1)) (hO : ∀ g, O g none = 0) :
    iprop(levAts (K (F := F)).L (K (F := F)).lev ∗ emp
        ∗ (∃ f, bandPts d (jL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_ones_body L oV (Memref.isWhole_whole _) sW (Memref.isWhole_whole _) cc0_scratch1)
          fun _ => iprop(bandPts d (jL L) (onesBuf d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_ones_body_eq_skeleton]; unfold cc0__sc_ones_body_skel
  rw [(K (F := F)).scopedBufs_V hF d (cV L) (jV L), SparseCore.Cfg.scopedSems0_V (Val := Elt F) d (cV L) (jV L), ownSems0_V, ownBufs_V]
  iintro ⟨#Hlv, -, ⟨%f, Hb⟩, ⟨⟨%fs, Hs⟩, Hbufs⟩, ⟨Hsem, Hsems⟩, HO⟩
  ihave Hmw := ((K (F := F)).mayWaits_none (thr := V d (cV L) (jV L)) hO) $$ Hlv
  sl_for (inv (F := F) d L) $$ [Hs]
  case region =>
    intro k _
    unfold inv
    iintro ⟨%g, %hg, Hs⟩
    ihave Hs' := (Entails.of_eq (pts_sW (F := F) d L g).symm) $$ Hs
    sl_exec
    sl_step
    iexists _
    isplitr
    rotate_left
    · iexact Hs'
    · ipureintro; intro y hy
      refine Eq.trans (read_row_fill (F := F) _ _ (r := k.val) (C := cols32) ?h cols32_cover y) ?_
      case h =>
        exact .cons (fun _ => rfl) (mem_piece (inb := k0_off32_inb k) (k0_off32_eq k)) <|
          .cons (fun _ => rfl) (mem_piece (inb := k0_off31_inb k) (k0_off31_eq k)) <|
          .cons (fun _ => rfl) (mem_piece (inb := k0_off30_inb k) (k0_off30_eq k)) <|
          .cons (fun _ => rfl) (mem_piece (inb := k0_off29_inb k) (k0_off29_eq k)) <|
          .cons (fun _ => rfl) (mem_piece (inb := k0_off28_inb k) (k0_off28_eq k)) <|
          .cons (fun _ => rfl) (mem_piece (inb := k0_off27_inb k) (k0_off27_eq k)) <|
          .cons (fun _ => rfl) (mem_piece (inb := k0_off26_inb k) (k0_off26_eq k)) <|
          .cons (fun _ => rfl) (mem_piece (inb := k0_off25_inb k) (k0_off25_eq k)) <|
          .cons (fun _ => rfl) (mem_piece (inb := k0_off24_inb k) (k0_off24_eq k)) <|
          .cons (fun _ => rfl) (mem_piece (inb := k0_off23_inb k) (k0_off23_eq k)) <|
          .cons (fun _ => rfl) (mem_piece (inb := k0_off22_inb k) (k0_off22_eq k)) <|
          .cons (fun _ => rfl) (mem_piece (inb := k0_off21_inb k) (k0_off21_eq k)) <|
          .cons (fun _ => rfl) (mem_piece (inb := k0_off20_inb k) (k0_off20_eq k)) <|
          .cons (fun _ => rfl) (mem_piece (inb := k0_off19_inb k) (k0_off19_eq k)) <|
          .cons (fun _ => rfl) (mem_piece (inb := k0_off18_inb k) (k0_off18_eq k)) <|
          .cons (fun _ => rfl) (mem_piece (inb := k0_off17_inb k) (k0_off17_eq k)) <|
          .cons (fun _ => rfl) (mem_piece (inb := k0_off16_inb k) (k0_off16_eq k)) <|
          .cons (fun _ => rfl) (mem_piece (inb := k0_off15_inb k) (k0_off15_eq k)) <|
          .cons (fun _ => rfl) (mem_piece (inb := k0_off14_inb k) (k0_off14_eq k)) <|
          .cons (fun _ => rfl) (mem_piece (inb := k0_off13_inb k) (k0_off13_eq k)) <|
          .cons (fun _ => rfl) (mem_piece (inb := k0_off12_inb k) (k0_off12_eq k)) <|
          .cons (fun _ => rfl) (mem_piece (inb := k0_off11_inb k) (k0_off11_eq k)) <|
          .cons (fun _ => rfl) (mem_piece (inb := k0_off10_inb k) (k0_off10_eq k)) <|
          .cons (fun _ => rfl) (mem_piece (inb := k0_off9_inb k) (k0_off9_eq k)) <|
          .cons (fun _ => rfl) (mem_piece (inb := k0_off8_inb k) (k0_off8_eq k)) <|
          .cons (fun _ => rfl) (mem_piece (inb := k0_off7_inb k) (k0_off7_eq k)) <|
          .cons (fun _ => rfl) (mem_piece (inb := k0_off6_inb k) (k0_off6_eq k)) <|
          .cons (fun _ => rfl) (mem_piece (inb := k0_off5_inb k) (k0_off5_eq k)) <|
          .cons (fun _ => rfl) (mem_piece (inb := k0_off4_inb k) (k0_off4_eq k)) <|
          .cons (fun _ => rfl) (mem_piece (inb := k0_off3_inb k) (k0_off3_eq k)) <|
          .cons (fun _ => rfl) (mem_piece (inb := k0_off2_inb k) (k0_off2_eq k)) <|
          .cons (fun _ => rfl) (mem_piece (inb := k0_off1_inb k) (k0_off1_eq k)) <|
          .nil
      by_cases h : (y 0).val = k.val
      · rw [if_pos h]
      · rw [if_neg h]; exact hg y (by omega)
  · unfold inv
    iexists fs; isplitr
    · ipureintro; intro y hy; exact absurd hy (Nat.not_lt_zero _)
    · iexact Hs
  iintro %_ HI
  unfold inv
  icases HI with ⟨%g, %hg, Hs⟩
  ihave Hs' := (Entails.of_eq (pts_sW (F := F) d L g).symm) $$ Hs
  ihave Hb' := (Entails.of_eq (pts_oBandK (F := F) d L f).symm) $$ Hb
  sl_exec
  sl_step
  have hw : ∀ x, tile_body.sl.dma0 d L g x = (oneF : F .f32) := fun x => hg x (by rw [trips_eq]; exact (x 0).isLt)
  isplitl [Hb']
  · ihave Hb := (Entails.of_eq (pts_oBandK (F := F) d L _)) $$ Hb'
    ihave Hb2 := (Entails.of_eq (pointsTo_congr (ℓ := v0Loc d) (q := fullShare) (landed_ones (F := F) d L f _ hw))) $$ Hb
    iexact Hb2
  isplitl [Hs' Hbufs]
  · isplitl [Hs']
    · iexists g; iexact Hs'
    · iexact Hbufs
  isplitl [Hsem Hsems]
  · isplitl [Hsem]; · iexact Hsem
    iexact Hsems
  iexists _; isplitr
  rotate_left
  · iexact HO
  · ipureintro; intro p hp
    rcases Finset.mem_insert.mp hp with hp | hp
    · exact .inr (hp ▸ rfl)
    · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_ones_body (coordsV c s)
          oV (Memref.isWhole_whole _) sW (Memref.isWhole_whole _) cc0_scratch1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P (F := F)) v₀ 0 := by
  intro d c i O W hO _ _
  -- the task owes nothing for a protocol of its own
  simp only [show (P (F := F)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO).trans (wp_mono frame _ _ fun _ => obl_post)

end Cert.Proof.KI

end
-- ==== Proof.Ideal.Final.lean ====
/-
  The TensorCore's buffer contents at the end, read through the fold of boundary contents: the argument's buffer as
  launched, and the result's buffer holding 1.0 on its first 512 rows and 0.0 on the others — block row 0 (rows 0 … 2047)
  is the second kernel's one block (the 512 rows of ones on top of 1536 rows of 0.0), and every later block row is one
  of the first kernel's 31 blocks of 0.0, carried over by the copy.
-/
import proofs.«211883_g61933428412881_cont_9to1_m_917_22_alg».proof.Proof.Ideal.Segs

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The argument's buffer -/

/-- No region and no host operation writes the argument's buffer: the fold walks back to the launch memory. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [copyOps, List.Forall, StableHlo.unary_writes, Finset.mem_singleton]
          exact StableHlo.devRef_ne_of_ne (by decide)))
    _ = W1 m c (Proc.devRef .tc main_arg0) := W2_of_ne m c main_arg0 (by decide)
    _ = m ((c : Thread nD τ).loc main_arg0) := by
          unfold W1
          exact Function.update_of_ne (StableHlo.devRef_ne_of_ne (by decide)) _ _

/-! ## The 512x512 array of ones, as the second region finds it -/

theorem V3_main_v0 (c : Dev nD) : V3 m c main_v0 = onesBuf c :=
  calc W3 m c (Proc.devRef .tc main_v0)
    _ = W2 m c (Proc.devRef .tc main_v0) := StableHlo.after_of_forall_not_mem (b := Proc.devRef .tc main_v0) _ _ (List.forall_iff_forall_mem.mp (by
          simp only [copyOps, List.Forall, StableHlo.unary_writes, Finset.mem_singleton]
          exact StableHlo.devRef_ne_of_ne (by decide)))
    _ = W1 m c (Proc.devRef .tc main_v0) := W2_of_ne m c main_v0 (by decide)
    _ = onesBuf c := by
          unfold W1
          exact Function.update_self _ _ _

/-- The copy puts the first region's array into the result's buffer. -/
theorem V3_main_v2 (c : Dev nD) : V3 m c main_v2 = W2 m c (Proc.devRef .tc main_v1) := by
  show StableHlo.after copyOps (W2 m c) (Proc.devRef .tc main_v2) = _
  rw [StableHlo.after_cons, StableHlo.after_nil]
  exact StableHlo.unary_result main_v1 main_v2 id _ _ (W2 m c)

/-! ## The first region's array at the end: blocks of 0.0 from block row 1 on -/

/-- Point `t` of the first kernel's grid writes block row `t + 1`, block column 0 (decided over the 31 points). -/
theorem idx_facts1 : ∀ t : Fin cfg1.N, win1_0.index t (0 : Fin 2) = t.val + 1 ∧ win1_0.index t (1 : Fin 2) = 0 :=
  (by decide +kernel : ∀ t : Fin grid1.N, win1_0.index t (0 : Fin 2) = t.val + 1 ∧ win1_0.index t (1 : Fin 2) = 0)

/-- What point `t` writes back is block `t` of the array of 0.0. -/
theorem flushed1_eq (c : Dev nD) (t : Fin cfg1.N) :
    (dat1 (V1 m) (Bd (F := F) c) c).flushed 0 t = ((cfg1.win 0).blk t).view.read (Elt F) (fun _ => zeroF) := by
  show (cfg1.win 0).cut (grid1.coords t) ((dat1 (V1 m) (Bd (F := F) c) c).after 0 t) = _
  rw [after1_0]
  rfl

/-- An index of the array is in point `t`'s block iff each coordinate is in the block's range on its axis. -/
theorem mem_blk1 (t : Fin cfg1.N) (i : S65536x512.Idx) :
    i ∈ ((cfg1.win 0).blk t).view.set ↔ ∀ a : Fin 2, win1_0.index t a * S2048x512.size a ≤ (i a).val ∧ (i a).val < win1_0.index t a * S2048x512.size a + S2048x512.size a := by
  show i ∈ ((View.whole main_v1).slice (win1_0.rect t)).set ↔ _
  rw [View.set_slice_whole, Rect.mem_set_unit]
  exact Iff.rfl

/-- The first kernel's blocks cover exactly the rows from 2048 on. -/
theorem covered_iff1 (i : S65536x512.Idx) :
    (∃ t : Fin cfg1.N, (cfg1.win 0).flush t = true ∧ i ∈ ((cfg1.win 0).blk t).view.set) ↔ 2048 ≤ (i 0).val := by
  have hi0 : (i 0).val < 65536 := Idealize.ShloMosaic.ValueIdx.idx2_lt0 i
  have hi1 : (i 1).val < 512 := Idealize.ShloMosaic.ValueIdx.idx2_lt1 i
  constructor
  · rintro ⟨t, -, hi⟩
    rw [mem_blk1] at hi
    have b0 : win1_0.index t (0 : Fin 2) * 2048 ≤ (i 0).val ∧ (i 0).val < win1_0.index t (0 : Fin 2) * 2048 + 2048 := hi 0
    obtain ⟨e0, e1⟩ := idx_facts1 t
    omega
  · intro h
    have ht : (i 0).val / 2048 - 1 < 31 := by omega
    obtain ⟨e0, e1⟩ := idx_facts1 ⟨(i 0).val / 2048 - 1, ht⟩
    have e0' : win1_0.index ⟨(i 0).val / 2048 - 1, ht⟩ (0 : Fin 2) = (i 0).val / 2048 - 1 + 1 := e0
    refine ⟨⟨(i 0).val / 2048 - 1, ht⟩, flush1_0 _, ?_⟩
    rw [mem_blk1]
    intro a
    match a with
    | ⟨0, _⟩ =>
      show win1_0.index ⟨(i 0).val / 2048 - 1, ht⟩ (0 : Fin 2) * 2048 ≤ (i 0).val ∧ (i 0).val < win1_0.index ⟨(i 0).val / 2048 - 1, ht⟩ (0 : Fin 2) * 2048 + 2048
      omega
    | ⟨1, _⟩ =>
      show win1_0.index ⟨(i 0).val / 2048 - 1, ht⟩ (1 : Fin 2) * 512 ≤ (i 1).val ∧ (i 1).val < win1_0.index ⟨(i 0).val / 2048 - 1, ht⟩ (1 : Fin 2) * 512 + 512
      omega

/-- The first region's array at the end: 0.0 from row 2048 on, its entry contents above. -/
theorem final1 (c : Dev nD) (i : S65536x512.Idx) :
    (dat1 (V1 m) (Bd (F := F) c) c).arrAt 0 cfg1.N i = if 2048 ≤ (i 0).val then zeroF else V1 m c (Pipeline.arrRef spec1 0) i := by
  rw [(dat1 (V1 m) (Bd (F := F) c) c).arrAt_eq_piecewise 0 (fun _ => zeroF) (fun t _ => flushed1_eq m c t) i, A_eq1]
  exact if_congr (covered_iff1 i) rfl rfl

/-! ## The second region's array at the end: the merged block at block row 0 -/

/-- The second kernel's one point writes block row 0, block column 0. -/
theorem idx_facts2 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- The block the second kernel reads is the 512x512 array of ones, whole. -/
theorem iblk2_ones (c : Dev nD) (t : Fin cfg2.N) : iblk2 (V3 m) c 0 t = fun _ => oneF := by
  unfold iblk2
  rw [show V3 m c (Pipeline.arrRef spec2 0) = onesBuf c from V3_main_v0 m c]
  rfl

/-- What the one point writes back is block row 0 of the result: ones on 512 rows, 0.0 on the 1536 below. -/
theorem flushed2_eq (c : Dev nD) (t : Fin cfg2.N) :
    (dat2 (V3 m) (Bd (F := F) c) c).flushed 1 t = ((cfg2.win 1).blk t).view.read (Elt F) (resBuf c) := by
  show (cfg2.win 1).cut (grid2.coords t) ((dat2 (V3 m) (Bd (F := F) c) c).after 1 t) = _
  rw [after2_1, iblk2_ones]
  obtain ⟨e0, e1⟩ := idx_facts2 t
  funext j
  show mergeBlk (fun _ => oneF) ((cfg2.win 1).xinj (grid2.coords t) j) = resBuf c (((cfg2.win 1).blk t).view.emb j)
  have h0 : ((((cfg2.win 1).blk t).view.emb j) 0).val = win2_1.index t (0 : Fin 2) * 2048 + 1 * (j 0).val := rfl
  have hx : (((cfg2.win 1).xinj (grid2.coords t) j) 0).val = (j 0).val := rfl
  unfold mergeBlk resBuf
  by_cases h : (j 0).val < 512
  · rw [dif_pos (by rw [hx]; exact h), if_pos (by rw [h0, e0]; omega)]
  · rw [dif_neg (by rw [hx]; exact h), if_neg (by rw [h0, e0]; omega)]

/-- An index of the array is in point `t`'s block iff each coordinate is in the block's range on its axis. -/
theorem mem_blk2 (t : Fin cfg2.N) (i : S65536x512.Idx) :
    i ∈ ((cfg2.win 1).blk t).view.set ↔ ∀ a : Fin 2, win2_1.index t a * S2048x512.size a ≤ (i a).val ∧ (i a).val < win2_1.index t a * S2048x512.size a + S2048x512.size a := by
  show i ∈ ((View.whole main_v2).slice (win2_1.rect t)).set ↔ _
  rw [View.set_slice_whole, Rect.mem_set_unit]
  exact Iff.rfl

/-- The second kernel's block covers exactly the rows below 2048. -/
theorem covered_iff2 (i : S65536x512.Idx) :
    (∃ t : Fin cfg2.N, (cfg2.win 1).flush t = true ∧ i ∈ ((cfg2.win 1).blk t).view.set) ↔ (i 0).val < 2048 := by
  have hi1 : (i 1).val < 512 := Idealize.ShloMosaic.ValueIdx.idx2_lt1 i
  constructor
  · rintro ⟨t, -, hi⟩
    rw [mem_blk2] at hi
    have b0 : win2_1.index t (0 : Fin 2) * 2048 ≤ (i 0).val ∧ (i 0).val < win2_1.index t (0 : Fin 2) * 2048 + 2048 := hi 0
    obtain ⟨e0, e1⟩ := idx_facts2 t
    omega
  · intro h
    have ht : 0 < 1 := Nat.one_pos
    obtain ⟨e0, e1⟩ := idx_facts2 ⟨0, ht⟩
    refine ⟨⟨0, ht⟩, flush2_1 _, ?_⟩
    rw [mem_blk2]
    intro a
    match a with
    | ⟨0, _⟩ =>
      show win2_1.index ⟨0, ht⟩ (0 : Fin 2) * 2048 ≤ (i 0).val ∧ (i 0).val < win2_1.index ⟨0, ht⟩ (0 : Fin 2) * 2048 + 2048
      omega
    | ⟨1, _⟩ =>
      show win2_1.index ⟨0, ht⟩ (1 : Fin 2) * 512 ≤ (i 1).val ∧ (i 1).val < win2_1.index ⟨0, ht⟩ (1 : Fin 2) * 512 + 512
      omega

/-- The second region's array at the end: the result's rows below 2048, its entry contents from row 2048 on. -/
theorem final2 (c : Dev nD) (i : S65536x512.Idx) :
    (dat2 (V3 m) (Bd (F := F) c) c).arrAt 1 cfg2.N i = if (i 0).val < 2048 then resBuf c i else V3 m c (Pipeline.arrRef spec2 1) i := by
  rw [(dat2 (V3 m) (Bd (F := F) c) c).arrAt_eq_piecewise 1 (resBuf c) (fun t _ => flushed2_eq m c t) i, A_eq2]
  exact if_congr (covered_iff2 i) rfl rfl

/-! ## The result's buffer -/

/-- The result's buffer at the end: 1.0 on the first 512 rows, 0.0 on the others. -/
theorem W4_main_v2 (c : Dev nD) : W4 m c (Proc.devRef .tc main_v2) = resBuf c := by
  rw [show W4 m c (Proc.devRef .tc main_v2) = (dat2 (V3 m) (Bd (F := F) c) c).arrAt 1 cfg2.N from W4_arr m c 1]
  funext i
  rw [final2]
  by_cases h : (i 0).val < 2048
  · rw [if_pos h]
  · rw [if_neg h]
    rw [show V3 m c (Pipeline.arrRef spec2 1) = W2 m c (Proc.devRef .tc main_v1) from V3_main_v2 m c,
      show W2 m c (Proc.devRef .tc main_v1) = (dat1 (V1 m) (Bd (F := F) c) c).arrAt 0 cfg1.N from W2_arr m c 0,
      final1, if_pos (by omega)]
    unfold resBuf
    rw [if_neg (by omega)]

end Cert.Proof.KI

end
-- ==== Proof.Ideal.Launch.lean ====
/-
  The program's run: the launch theorem over the tile's obligation, the split of the 512x512 array into bands, the
  launch element, @main's proof and the reading of the final memory — every weakly fair execution of all the
  threads terminates with the result's buffer holding 1.0 on the first 512 rows and 0.0 below, the argument unchanged.
-/
import proofs.«211883_g61933428412881_cont_9to1_m_917_22_alg».proof.Proof.Ideal.Common
import proofs.«211883_g61933428412881_cont_9to1_m_917_22_alg».proof.Proof.Ideal.Main
import proofs.«211883_g61933428412881_cont_9to1_m_917_22_alg».proof.Proof.Ideal.Tile
import proofs.«211883_g61933428412881_cont_9to1_m_917_22_alg».proof.Proof.Ideal.Final

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

def fq (d : Dev nD) (s' : Phys nD τ sig (Elt F)) : Prop :=
  s'.mem.mem (d, a') = W4 m d a' ∧ s'.mem.mem (d, v2') = W4 m d v2'

theorem hfin (d : Dev nD) (s' : Phys nD τ sig (Elt F)) : iprop(FINW m d ∗ SI s') ⊢ (⌜fq m d s'⌝ : sProp 𝕄) := by
  iintro ⟨⟨Ha, Hv⟩, HSI⟩
  ihave H := (persistent_entails_right (SI_pointsTo_agree (st := s') (ℓ := (d, a')) (I := Finset.univ) (q := fullShare) (f := W4 m d a'))) $$ [HSI Ha]
  · isplitl [HSI] <;> iassumption
  icases H with ⟨%h1, HSI, -⟩
  ihave H := (SI_pointsTo_agree (st := s') (ℓ := (d, v2')) (I := Finset.univ) (q := fullShare) (f := W4 m d v2')) $$ [HSI Hv]
  · isplitl [HSI] <;> iassumption
  icases H with %h2
  ipureintro; exact ⟨funext fun i => h1 i (Finset.mem_univ i), funext fun i => h2 i (Finset.mem_univ i)⟩

/-- The result's buffer at its closed form, the argument array as launched, on every device. -/
def QC : PUnit × MemSt nD τ sig (Elt F) → Prop := fun r => ∀ c : Dev nD,
  r.2.mem ((c.tc : Thread nD τ).loc main_v2) = resBuf c
    ∧ r.2.mem ((c.tc : Thread nD τ).loc main_arg0) = m ((c.tc : Thread nD τ).loc main_arg0)

theorem run_main : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq)
    (fun q _ => match q with | 0 => tileObl facts)
    (fun q _ => match q with | 0 => SparseCore.Cfg.VecSplit.of_plain vecSplit)
    m ρ main (ghostG (F := F)) (FINW m) (u₀ (F := F)) (sep_elim_left.trans hu₀) (hmain m ρ) (fq m) (hfin m) (QC m)
    (fun s' h c => ⟨(h c).2.trans (W4_main_v2 m c), (h c).1.trans (W4_main_arg0 m c)⟩)

end Cert.Proof.KI

end
-- ==== Proof.LibIndexedRows.lean ====
/-
  Row-indexed gathers, accumulating row scatters and a two-piece concatenation of vectors, read at coordinates.

  A table `x : [N, D]` gathered at integer row indices `idx : [E, 1]` has, at `(e, k)`, the entry `x (r, k)` where
  `r` is `idx (e, 0)` read as a signed integer and clamped into `[0, N − 1]`; a vector `x : [N]` gathered at the same
  indices has at `e` the entry `x r`. An accumulating scatter of rows `upd : [E, D]` into `x : [N, D]` at the row
  indices `idx : [E, 1]` has, over the extended reals, at `(c, k)` the entry `x (c, k)` plus the sum over all `e`
  whose index `idx (e, 0)`, read signed, equals `c` of `upd (e, k)` (an index outside `[0, N − 1]` matches no row and
  its update is dropped); the scatter of a vector `upd : [E]` into `x : [N]` is the same sum without the column.
  The concatenation of `u : [A]` and `v : [B]` along their one axis is `u e` below `A` and `v (e − A)` from `A` on.
  All statements are generic in the extents, so they apply to literal shapes by unification.
-/
import Idealize.ShloMosaic.Lib.ValueIdx
import Idealize.ShloMosaic.Lib.Pipeline.Value
import Idealize.ShloMosaic.PureOps.Ideal.Laws

noncomputable section

open scoped BigOperators

namespace Cert.Lib.IndexedRows

open Idealize.ShloMosaic Idealize.ShloMosaic.ValueIdx

/-- A word read as a signed integer and clamped into the row range `[0, N − 1]` (negative values go to `0`). -/
def clampRow (N : ℕ) (hN : 0 < N) {w : ℕ} (v : BitVec w) : Fin N := ⟨min v.toInt.toNat (N - 1), by omega⟩

/-! ## Gathering rows of a table -/

section GatherRows
variable {α : Type}

/-- The dimension numbers of a row gather: operand `[N, D]`, start indices `[E, 1]`, result `[E, D]`; the operand's
    row axis is collapsed and indexed, its column axis is the result's offset axis, a slice is one whole row. -/
abbrev gatherRowsDims (N E D : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at `(e, k)`: the table at row `idx (e, 0)`, read signed and clamped, and column `k`. -/
theorem gather_rows_apply {N E D w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (gatherRowsDims N E D wf) x idx (ix2 e k) = x (ix2 (clampRow N hN (idx (ix2 e (0 : Fin 1)))) k) := by
  unfold Host.gather
  congr 1
  have h0 : (gatherRowsDims N E D wf).start (ix2 e k) idx (0 : Fin 2) + (gatherRowsDims N E D wf).batchCoord (ix2 e k) (0 : Fin 2)
      + (gatherRowsDims N E D wf).offCoord (ix2 e k) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E D wf).startIndexMap from List.mem_singleton.mpr rfl)]
    have hsi : (gatherRowsDims N E D wf).siIdx (ix2 e k) ⟨List.idxOf (0 : Fin 2) (gatherRowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (gatherRowsDims N E D wf).start (ix2 e k) idx (1 : Fin 2) + (gatherRowsDims N E D wf).batchCoord (ix2 e k) (1 : Fin 2)
      + (gatherRowsDims N E D wf).offCoord (ix2 e k) (1 : Fin 2) = k.val := by
    have hne : (1 : Fin 2) ∉ [(0 : Fin 2)] := fun h => absurd (List.mem_singleton.mp h) (by decide)
    rw [GatherDims.batchCoord_eq_zero _ _ _ List.not_mem_nil]
    unfold GatherDims.start
    rw [dif_neg (show ¬ ((1 : Fin 2) ∈ (gatherRowsDims N E D wf).startIndexMap) from hne)]
    unfold GatherDims.offCoord
    rw [dif_pos ((GatherDims.mem_sKept _ _).mpr ⟨hne, List.not_mem_nil⟩)]
    simp only [Nat.add_zero, Nat.zero_add]
    rfl
  funext a
  refine Fin.ext ?_
  match a with
  | ⟨0, _⟩ => exact h0
  | ⟨1, _⟩ => exact h1

end GatherRows

/-! ## Accumulating rows into a table -/

section ScatterRows

/-- The dimension numbers of a row scatter: operand `[N, D]`, scatter indices `[E, 1]`, updates `[E, D]`; the
    updates' column axis is the window axis, the operand's row axis is inserted and indexed. -/
abbrev scatterRowsDims (N E D : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis update `(e, k')` lands at the signed index `idx (e, 0)`. -/
theorem scatterRows_land_row {N E D w : ℕ} (wf : ScatterDims.WF ⟨2, ![N, D]⟩ ⟨2, ![E, 1]⟩ ⟨2, ![E, D]⟩ [1] [0] [0] 1)
    (idx : IVec ⟨2, ![E, 1]⟩ w) (e : Fin E) (k' : Fin D) :
    (scatterRowsDims N E D wf).start (ix2 e k') idx (0 : Fin 2) + ((scatterRowsDims N E D wf).window (ix2 e k') (0 : Fin 2) : ℤ)
      = (idx (ix2 e (0 : Fin 1))).toInt := by
  have hmem : (0 : Fin 2) ∈ [(0 : Fin 2)] := List.mem_singleton.mpr rfl
  unfold ScatterDims.start ScatterDims.window
  rw [dif_pos (show (0 : Fin 2) ∈ (scatterRowsDims N E D wf).scatterDimsToOperandDims from hmem),
    dif_neg (show ¬ ((0 : Fin 2) ∈ (scatterRowsDims N E D wf).sKept) from fun h => (List.mem_filter.mp h).2 |> fun h' => by simpa using h')]
  have hsi : (scatterRowsDims N E D wf).siIdx (ix2 e k') ⟨List.idxOf (0 : Fin 2) (scatterRowsDims N E D wf).scatterDimsToOperandDims,
      List.idxOf_lt_length_iff.2 hmem⟩ = ix2 e (0 : Fin 1) := by
    funext b; refine Fin.ext ?_
    match b with
    | ⟨0, _⟩ => rfl
    | ⟨1, _⟩ => rfl
  rw [hsi]
  simp

/-- On the column axis update `(e, k')` lands at its own column `k'`. -/
theorem scatterRows_land_col {N E D w : ℕ} (wf : ScatterDims.WF ⟨2, ![N, D]⟩ ⟨2, ![E, 1]⟩ ⟨2, ![E, D]⟩ [1] [0] [0] 1)
    (idx : IVec ⟨2, ![E, 1]⟩ w) (e : Fin E) (k' : Fin D) :
    (scatterRowsDims N E D wf).start (ix2 e k') idx (1 : Fin 2) + ((scatterRowsDims N E D wf).window (ix2 e k') (1 : Fin 2) : ℤ)
      = (k'.val : ℤ) := by
  have hne : (1 : Fin 2) ∉ [(0 : Fin 2)] := fun h => absurd (List.mem_singleton.mp h) (by decide)
  unfold ScatterDims.start ScatterDims.window
  rw [dif_neg (show ¬ ((1 : Fin 2) ∈ (scatterRowsDims N E D wf).scatterDimsToOperandDims) from hne),
    dif_pos (show (1 : Fin 2) ∈ (scatterRowsDims N E D wf).sKept from List.mem_filter.mpr ⟨List.mem_finRange _, by simpa using hne⟩)]
  simp only [Int.zero_add]
  rfl

/-- Update `(e, k')` lands on the table's entry `(c, k)` exactly when it is in column `k` and its index, read signed,
    is `c`. -/
theorem scatterRows_resultIdx_iff {N E D w : ℕ} (wf : ScatterDims.WF ⟨2, ![N, D]⟩ ⟨2, ![E, 1]⟩ ⟨2, ![E, D]⟩ [1] [0] [0] 1)
    (idx : IVec ⟨2, ![E, 1]⟩ w) (e : Fin E) (k' : Fin D) (c : Fin N) (k : Fin D) :
    (scatterRowsDims N E D wf).resultIdx? (ix2 e k') idx = some (ix2 c k)
      ↔ k' = k ∧ (idx (ix2 e (0 : Fin 1))).toInt = (c.val : ℤ) := by
  have hr := scatterRows_land_row wf idx e k'
  have hc := scatterRows_land_col wf idx e k'
  unfold ScatterDims.resultIdx?
  split
  · rename_i h
    rw [Option.some.injEq]
    have b0 := h (0 : Fin 2)
    have b1 := h (1 : Fin 2)
    constructor
    · intro hf
      have e0 : ((scatterRowsDims N E D wf).start (ix2 e k') idx (0 : Fin 2)
          + ((scatterRowsDims N E D wf).window (ix2 e k') (0 : Fin 2) : ℤ)).toNat = c.val :=
        congrArg (fun f : (⟨2, ![N, D]⟩ : Shape).Idx => (f (0 : Fin 2)).val) hf
      have e1 : ((scatterRowsDims N E D wf).start (ix2 e k') idx (1 : Fin 2)
          + ((scatterRowsDims N E D wf).window (ix2 e k') (1 : Fin 2) : ℤ)).toNat = k.val :=
        congrArg (fun f : (⟨2, ![N, D]⟩ : Shape).Idx => (f (1 : Fin 2)).val) hf
      rw [hr] at e0 b0
      rw [hc] at e1
      exact ⟨Fin.ext (by omega), by omega⟩
    · rintro ⟨rfl, hi⟩
      funext a
      refine Fin.ext ?_
      match a with
      | ⟨0, _⟩ =>
        show ((scatterRowsDims N E D wf).start (ix2 e k') idx (0 : Fin 2)
          + ((scatterRowsDims N E D wf).window (ix2 e k') (0 : Fin 2) : ℤ)).toNat = c.val
        rw [hr]; omega
      | ⟨1, _⟩ =>
        show ((scatterRowsDims N E D wf).start (ix2 e k') idx (1 : Fin 2)
          + ((scatterRowsDims N E D wf).window (ix2 e k') (1 : Fin 2) : ℤ)).toNat = k'.val
        rw [hc]; omega
  · rename_i h
    constructor
    · intro hf; exact absurd hf (by simp)
    · rintro ⟨rfl, hi⟩
      exfalso; apply h
      intro a
      match a with
      | ⟨0, _⟩ =>
        show 0 ≤ (scatterRowsDims N E D wf).start (ix2 e k') idx (0 : Fin 2)
            + ((scatterRowsDims N E D wf).window (ix2 e k') (0 : Fin 2) : ℤ)
          ∧ (scatterRowsDims N E D wf).start (ix2 e k') idx (0 : Fin 2)
            + ((scatterRowsDims N E D wf).window (ix2 e k') (0 : Fin 2) : ℤ) < (N : ℤ)
        rw [hr, hi]; have := c.isLt; omega
      | ⟨1, _⟩ =>
        show 0 ≤ (scatterRowsDims N E D wf).start (ix2 e k') idx (1 : Fin 2)
            + ((scatterRowsDims N E D wf).window (ix2 e k') (1 : Fin 2) : ℤ)
          ∧ (scatterRowsDims N E D wf).start (ix2 e k') idx (1 : Fin 2)
            + ((scatterRowsDims N E D wf).window (ix2 e k') (1 : Fin 2) : ℤ) < (D : ℤ)
        rw [hc]; have := k'.isLt; omega

/-- The accumulating row scatter at `(c, k)`, over the extended reals: the table's entry plus the sum of the updates'
    entries `(e, k)` over the rows `e` whose index, read signed, is `c`. -/
theorem scatterAdd_rows_apply {N E D w : ℕ} (wf : ScatterDims.WF ⟨2, ![N, D]⟩ ⟨2, ![E, 1]⟩ ⟨2, ![E, D]⟩ [1] [0] [0] 1)
    {φ : FTy} (x : FVec Ideal ⟨2, ![N, D]⟩ φ) (idx : IVec ⟨2, ![E, 1]⟩ w) (upd : FVec Ideal ⟨2, ![E, D]⟩ φ)
    (c : Fin N) (k : Fin D) :
    Host.scatterAdd (scatterRowsDims N E D wf) x idx upd (ix2 c k)
      = x (ix2 c k) + ∑ e : Fin E, if (idx (ix2 e (0 : Fin 1))).toInt = (c.val : ℤ) then upd (ix2 e k) else 0 := by
  show x (ix2 c k) + ∑ j ∈ Finset.univ.filter (fun j => (scatterRowsDims N E D wf).resultIdx? j idx = some (ix2 c k)), upd j = _
  congr 1
  rw [Finset.sum_filter, sum_idx2]
  refine Finset.sum_congr rfl fun e _ => ?_
  simp only [scatterRows_resultIdx_iff wf idx e _ c k]
  by_cases hi : (idx (ix2 e (0 : Fin 1))).toInt = (c.val : ℤ)
  · simp only [hi, and_true, if_true]
    rw [Finset.sum_ite_eq' Finset.univ k (fun k' => upd (ix2 e k'))]
    simp
  · simp only [hi, and_false, if_false]
    exact Finset.sum_const_zero

end ScatterRows

/-! ## The same two operations on a vector -/

section Vec
variable {α : Type}

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The dimension numbers of a vector scatter: operand `[N]`, scatter indices `[E, 1]`, updates `[E]`; no window axis,
    the operand's one axis is inserted and indexed. -/
abbrev scatterVecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at the signed index `idx (e, 0)`. -/
theorem scatterVec_land {N E w : ℕ} (wf : ScatterDims.WF ⟨1, ![N]⟩ ⟨2, ![E, 1]⟩ ⟨1, ![E]⟩ [] [0] [0] 1)
    (idx : IVec ⟨2, ![E, 1]⟩ w) (e : Fin E) :
    (scatterVecDims N E wf).start (ix1 e) idx (0 : Fin 1) + ((scatterVecDims N E wf).window (ix1 e) (0 : Fin 1) : ℤ)
      = (idx (ix2 e (0 : Fin 1))).toInt := by
  have hmem : (0 : Fin 1) ∈ [(0 : Fin 1)] := List.mem_singleton.mpr rfl
  unfold ScatterDims.start ScatterDims.window
  rw [dif_pos (show (0 : Fin 1) ∈ (scatterVecDims N E wf).scatterDimsToOperandDims from hmem),
    dif_neg (show ¬ ((0 : Fin 1) ∈ (scatterVecDims N E wf).sKept) from fun h => (List.mem_filter.mp h).2 |> fun h' => by simpa using h')]
  have hsi : (scatterVecDims N E wf).siIdx (ix1 e) ⟨List.idxOf (0 : Fin 1) (scatterVecDims N E wf).scatterDimsToOperandDims,
      List.idxOf_lt_length_iff.2 hmem⟩ = ix2 e (0 : Fin 1) := by
    funext b; refine Fin.ext ?_
    match b with
    | ⟨0, _⟩ => rfl
    | ⟨1, _⟩ => rfl
  rw [hsi]
  simp

/-- Update `e` lands on the vector's entry `c` exactly when its index, read signed, is `c`. -/
theorem scatterVec_resultIdx_iff {N E w : ℕ} (wf : ScatterDims.WF ⟨1, ![N]⟩ ⟨2, ![E, 1]⟩ ⟨1, ![E]⟩ [] [0] [0] 1)
    (idx : IVec ⟨2, ![E, 1]⟩ w) (e : Fin E) (c : Fin N) :
    (scatterVecDims N E wf).resultIdx? (ix1 e) idx = some (ix1 c) ↔ (idx (ix2 e (0 : Fin 1))).toInt = (c.val : ℤ) := by
  have hr := scatterVec_land wf idx e
  unfold ScatterDims.resultIdx?
  split
  · rename_i h
    rw [Option.some.injEq]
    have b0 := h (0 : Fin 1)
    constructor
    · intro hf
      have e0 : ((scatterVecDims N E wf).start (ix1 e) idx (0 : Fin 1)
          + ((scatterVecDims N E wf).window (ix1 e) (0 : Fin 1) : ℤ)).toNat = c.val :=
        congrArg (fun f : (⟨1, ![N]⟩ : Shape).Idx => (f (0 : Fin 1)).val) hf
      rw [hr] at e0 b0
      omega
    · intro hi
      funext a
      refine Fin.ext ?_
      match a with
      | ⟨0, _⟩ =>
        show ((scatterVecDims N E wf).start (ix1 e) idx (0 : Fin 1)
          + ((scatterVecDims N E wf).window (ix1 e) (0 : Fin 1) : ℤ)).toNat = c.val
        rw [hr]; omega
  · rename_i h
    constructor
    · intro hf; exact absurd hf (by simp)
    · intro hi
      exfalso; apply h
      intro a
      match a with
      | ⟨0, _⟩ =>
        show 0 ≤ (scatterVecDims N E wf).start (ix1 e) idx (0 : Fin 1)
            + ((scatterVecDims N E wf).window (ix1 e) (0 : Fin 1) : ℤ)
          ∧ (scatterVecDims N E wf).start (ix1 e) idx (0 : Fin 1)
            + ((scatterVecDims N E wf).window (ix1 e) (0 : Fin 1) : ℤ) < (N : ℤ)
        rw [hr, hi]; have := c.isLt; omega

/-- The accumulating vector scatter at `c`, over the extended reals: the vector's entry plus the sum of the updates
    `upd e` over the `e` whose index, read signed, is `c`. -/
theorem scatterAdd_vec_apply {N E w : ℕ} (wf : ScatterDims.WF ⟨1, ![N]⟩ ⟨2, ![E, 1]⟩ ⟨1, ![E]⟩ [] [0] [0] 1)
    {φ : FTy} (x : FVec Ideal ⟨1, ![N]⟩ φ) (idx : IVec ⟨2, ![E, 1]⟩ w) (upd : FVec Ideal ⟨1, ![E]⟩ φ) (c : Fin N) :
    Host.scatterAdd (scatterVecDims N E wf) x idx upd (ix1 c)
      = x (ix1 c) + ∑ e : Fin E, if (idx (ix2 e (0 : Fin 1))).toInt = (c.val : ℤ) then upd (ix1 e) else 0 := by
  show x (ix1 c) + ∑ j ∈ Finset.univ.filter (fun j => (scatterVecDims N E wf).resultIdx? j idx = some (ix1 c)), upd j = _
  congr 1
  rw [Finset.sum_filter, sum_idx1]
  refine Finset.sum_congr rfl fun e _ => ?_
  simp only [scatterVec_resultIdx_iff wf idx e c]

/-- The dimension numbers of a vector gather: operand `[N]`, start indices `[E, 1]`, result `[E]`; no offset axis, the
    operand's one axis is collapsed and indexed, a slice is one entry. -/
abbrev gatherVecDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at `e`: the vector at `idx (e, 0)`, read signed and clamped. -/
theorem gather_vec_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (clampRow N hN (idx (ix2 e (0 : Fin 1))))) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The concatenation of `u : [A]` and `v : [B]` at `e`: `u e` below `A`, `v (e − A)` from `A` on. -/
theorem concatenate2_vec_apply {A B C : ℕ} (hC : A + B = C) (u : (⟨1, ![A]⟩ : Shape).Idx → α)
    (v : (⟨1, ![B]⟩ : Shape).Idx → α)
    (h : Shape.Concatenates ([(⟨⟨1, ![A]⟩, u⟩ : (s : Shape) × (s.Idx → α)), ⟨⟨1, ![B]⟩, v⟩].map (·.1)) ⟨1, ![C]⟩ 0)
    (e : Fin C) :
    concatenate ⟨1, ![C]⟩ 0 [⟨⟨1, ![A]⟩, u⟩, ⟨⟨1, ![B]⟩, v⟩] h (ix1 e)
      = if hlt : e.val < A then u (ix1 ⟨e.val, hlt⟩) else v (ix1 ⟨e.val - A, by have := e.isLt; omega⟩) := by
  by_cases hlt : e.val < A
  · rw [dif_pos hlt]
    refine concatenate_pair_apply_left (t := ⟨1, ![C]⟩) (s₁ := ⟨1, ![A]⟩) (s₂ := ⟨1, ![B]⟩) 0 u v h (ix1 e) rfl
      (ix1 ⟨e.val, hlt⟩) ?_
    intro b
    obtain rfl : b = 0 := Subsingleton.elim _ _
    rfl
  · rw [dif_neg hlt]
    refine concatenate_pair_apply_right (t := ⟨1, ![C]⟩) (s₁ := ⟨1, ![A]⟩) (s₂ := ⟨1, ![B]⟩) 0 u v h (ix1 e) rfl rfl
      (ix1 ⟨e.val - A, by have := e.isLt; omega⟩) ?_ ?_
    · intro b hb
      exact absurd (Subsingleton.elim _ _) hb
    · show e.val - A + A = e.val
      omega

end Vec

end Cert.Lib.IndexedRows

end
-- ==== Proof.RefValue.lean ====
/-
  The reference's result, read at the extended reals. The reference scatters, by addition, the 512 rows of an
  all-ones [512, 512] array into a zero [65536, 512] array at the row indices 0, 1, …, 511 (each index first passed
  through the wrap of negative indices, which never fires on a non-negative index). At entry (r, c) the result is
  0 + Σ over the update rows e of (1 if e = r, else 0): exactly one row matches when r < 512 and none otherwise, so
  rows below 512 hold 1 and the others 0.
-/
import proofs.«211883_g61933428412881_cont_9to1_m_917_22_alg».proof.Defs
import proofs.«211883_g61933428412881_cont_9to1_m_917_22_alg».proof.Proof.Gen.ReferenceIdeal
import proofs.«211883_g61933428412881_cont_9to1_m_917_22_alg».proof.Proof.Gen.ReferenceIdeal.Run
import proofs.«211883_g61933428412881_cont_9to1_m_917_22_alg».proof.Proof.Gen.ReferenceIdeal.Read
import proofs.«211883_g61933428412881_cont_9to1_m_917_22_alg».proof.Proof.Gen.Pre_finite_inputs
import proofs.«211883_g61933428412881_cont_9to1_m_917_22_alg».proof.Proof.LibIndexedRows
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.Proof.Ref

open Idealize.ShloMosaic Idealize.ShloMosaic.TcCoe Idealize.SL.Sem Idealize.ShloMosaic.ValueIdx
open Cert.ReferenceIdeal Cert.ReferenceIdeal.Gen Cert.ReferenceIdeal.Read Cert.Lib.IndexedRows

/-- rows below 512 hold 1.0, the others 0.0 -/
def resRef : Cert.ReferenceIdeal.S65536x512.Idx → Ideal .f32 := fun i =>
  if (i 0).val < 512 then Scalar.ofBits .f32 0x3F800000#32 else Scalar.ofBits .f32 0x00000000#32

/-- A natural number below 2^31, written as a 32-bit word, reads back as itself when read signed. -/
theorem toInt_ofNat32 (n : ℕ) (h : n < 2147483648) : (BitVec.ofNat 32 n).toInt = (n : ℤ) := by
  rw [BitVec.toInt_eq_toNat_cond, BitVec.toNat_ofNat]
  have h1 : n % 2 ^ 32 = n := Nat.mod_eq_of_lt (by omega)
  rw [h1, if_pos (by omega)]

/-- The scatter's index for update row `e` is `e` itself: the wrap of negative indices never fires on `0 … 511`. -/
theorem idx_toInt (e : Fin 512) : (val_main_v9 (F := Ideal) (ix2 e (0 : Fin 1))).toInt = (e.val : ℤ) := by
  rw [val_main_v9_apply, val_main_v8_apply, val_main_v5_apply, val_main_v7_apply, val_main_v0_apply, val_main_v4_apply,
    val_main_c_0_apply, val_main_v6_apply, val_main_c_1_apply]
  have hj : ((idx_main_v9 (ix2 e (0 : Fin 1)) 0 : Fin 512) : ℕ) = e.val := rfl
  rw [hj]
  have he : e.val < 2147483648 := by have := e.isLt; omega
  have hlt : IntOp.cmpi .slt (BitVec.ofNat 32 e.val) 0#32 = 0#1 := by
    show BitVec.ofBool ((BitVec.ofNat 32 e.val).slt 0#32) = 0#1
    have : (BitVec.ofNat 32 e.val).slt 0#32 = false := by
      rw [BitVec.slt, toInt_ofNat32 _ he]
      simp
    rw [this]; rfl
  rw [hlt]
  show (if (0#1 : BitVec 1) = 1 then _ else _ : BitVec 32).toInt = _
  rw [if_neg (by decide)]
  exact toInt_ofNat32 _ he

/-- The all-true mask converted to a float is the real `1`. -/
theorem upd_one (j : S512x512.Idx) : val_main_v3 (F := Ideal) j = 1 := by
  rw [val_main_v3_apply, val_main_v1_apply, val_main_c_apply]
  show (((1#1 : BitVec 1).toNat : ℝ) : EReal) = 1
  simp

/-- The scattered-into array is the real `0` everywhere. -/
theorem base_zero (j : S65536x512.Idx) : val_main_v2 (F := Ideal) j = 0 := by
  rw [val_main_v2_apply, val_main_cst_apply]
  exact Ideal.ofBits_zero_f32

/-- Among the update rows `0 … 511`, exactly one equals `r` when `r < 512`, and none otherwise. -/
theorem count_rows (r : ℕ) :
    (∑ e : Fin 512, if ((e.val : ℤ) = (r : ℤ)) then (1 : EReal) else 0) = if r < 512 then 1 else 0 := by
  by_cases h : r < 512
  · rw [if_pos h]
    rw [Finset.sum_eq_single (⟨r, h⟩ : Fin 512)]
    · simp
    · intro b _ hb
      rw [if_neg]
      intro hh
      exact hb (Fin.ext (by exact_mod_cast hh))
    · intro hh; exact absurd (Finset.mem_univ _) hh
  · rw [if_neg h]
    refine Finset.sum_eq_zero fun e _ => ?_
    rw [if_neg]
    intro hh
    have := e.isLt
    omega

/-- The reference's result, index by index: `1.0` on the rows below 512, `0.0` on the others. -/
theorem val_eq : val_main_v10 (F := Ideal) = resRef := by
  funext i
  obtain ⟨r, k, rfl⟩ : ∃ (r : Fin 65536) (k : Fin 512), i = ix2 r k := ⟨i 0, i 1, eq_ix2 i⟩
  unfold val_main_v10
  have hd : scatter_S65536x512_S512x1_S512x512_1_0_0_1
      = scatterRowsDims 65536 512 512 scatter_S65536x512_S512x1_S512x512_1_0_0_1_wf := rfl
  rw [hd, scatterAdd_rows_apply, base_zero, zero_add]
  simp only [idx_toInt, upd_one]
  rw [count_rows]
  show (if r.val < 512 then (1 : EReal) else 0)
    = if r.val < 512 then Ideal.ofBits .f32 0x3F800000#32 else Ideal.ofBits .f32 0x00000000#32
  rw [Ideal.ofBits_zero_f32, show Ideal.ofBits .f32 0x3F800000#32 = 1 from IdealRules.sign_bit.ideal_onePat .f32]

/-- Every weakly fair execution of the reference terminates with its result at `resRef` and its argument unchanged. -/
theorem run_ref (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v10) = resRef
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run Cert.ReferenceIdeal.defs _ _).mono
    (fun _ h c => ⟨(h c).1.trans (val_main_v10_eq.trans val_eq), (h c).2⟩)
    (Cert.ReferenceIdeal.Value.run (F := Ideal) m' ρ')

/-- The reference runs and leaves its argument unchanged: its run with the value dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.Ref

end
-- ==== Proof.Ideal.Bridge.lean ====
/-
  The two sides' result functions are one: the array the kernel side ends with (rows below 512 the word 1.0, the
  others the word 0.0) is, at the extended reals, the function the reference's result is proved equal to.
-/
import proofs.«211883_g61933428412881_cont_9to1_m_917_22_alg».proof.Proof.Ideal.Common
import proofs.«211883_g61933428412881_cont_9to1_m_917_22_alg».proof.Proof.RefValue

noncomputable section

namespace Cert.Proof.KI

open Cert.KernelIdeal Cert.KernelIdeal.Gen

open Idealize.ShloMosaic

/-- On every device the kernel side's result array is the reference's result function. -/
theorem resBuf_ideal (d : Dev nD) :
    (resBuf (F := Ideal) d : Cert.ReferenceIdeal.S65536x512.Idx → Ideal .f32) = Cert.Proof.Ref.resRef := by
  funext i
  rfl

end Cert.Proof.KI

end
-- ==== Proof.Bits.Common.lean ====
/-
  The SparseCore program as the launch theorem reads it, the resource algebra of its proof, and what
  the one SparseCore call carries: the 512x512 array goes to the sixteen tiles in bands of 32 rows,
  each tile fills its band with the word 1.0, and the call hands the array back holding 1.0 everywhere.
-/
import proofs.«211883_g61933428412881_cont_9to1_m_917_22_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«211883_g61933428412881_cont_9to1_m_917_22_alg».proof.Proof.Gen.Kernel
import proofs.«211883_g61933428412881_cont_9to1_m_917_22_alg».proof.Proof.Gen.Kernel.Skeleton
import proofs.«211883_g61933428412881_cont_9to1_m_917_22_alg».proof.Proof.Gen.Kernel.Launch
import proofs.«211883_g61933428412881_cont_9to1_m_917_22_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- No pipeline has a prefetched table: the admissible contents are the trivial ones. -/
abbrev adm : (p : Fin 2) → (pcfgs (F := F) p).Adm := fun p => (cfgs p).toPCfg_adm

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans embR
instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

abbrev aLoc (d : Dev nD) : Loc nD τ sig := (SparseCore.T d).loc main_arg0
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

abbrev oV : Memref sig .scVector .hbm S512x512 .f32 := Memref.whole main_v0_scv
abbrev sW : Memref sig .scVector .vmem S32x512 .f32 := Memref.whole cc0_scratch0

/-- The sixteen bands of 32 rows: band `i` is rows `32 i … 32 i + 31`. -/
theorem hdiv : 16 ∣ S512x512.size 0 := ⟨32, rfl⟩
abbrev band (i : Fin 16) : Rect S512x512 := Rect.part (s := S512x512) (a₀ := 0) hdiv i
abbrev bandSet (i : Fin 16) : Finset S512x512.Idx := ((oV : Memref sig .scVector .hbm S512x512 .f32).view.slice (band i)).set

variable [FloatOps F]

/-- The word every tile stores: 1.0. -/
def oneF : F .f32 := Scalar.ofBits .f32 0x3F800000#32
/-- The word the TensorCore kernels store: 0.0. -/
def zeroF : F .f32 := Scalar.ofBits .f32 0x00000000#32

/-- The 512x512 array filled with 1.0. -/
def onesBuf (d : Dev nD) : Buf (Elt F) (v0Loc d) := fun _ => oneF

/-- The result: rows below 512 hold 1.0, the others 0.0. -/
def resBuf (d : Dev nD) : Buf (Elt F) (v2Loc d) := fun i => if (i 0).val < 512 then oneF else zeroF

/-! ## What the handshakes carry -/

abbrev v0Pts (d : Dev nD) (f : Buf (Elt F) (v0Loc d)) : sProp 𝕄 := v0Loc d ↦{fullShare} f
abbrev bandPts (d : Dev nD) (i : Fin 16) (f : Buf (Elt F) (v0Loc d)) : sProp 𝕄 := v0Loc d ↦[bandSet i]{fullShare} f

/-- The call takes the 512x512 array whole at any contents, each task band `i` of it, and brings it back holding 1.0. -/
def P : (K (F := F)).Pay (nD := nD) (Val := Elt F) (Name := ℕ) (U := UU) where
  st := fun q d _ => match q with | 0 => iprop(∃ f, v0Pts d f)
  dn := fun q d _ => match q with | 0 => v0Pts d (onesBuf d)
  go := fun q d _ i => match q with | 0 => iprop(∃ f, bandPts d (Fin.cast nSub_zero i) f)
  td := fun q d _ i => match q with | 0 => bandPts d (Fin.cast nSub_zero i) (onesBuf d)
  x := fun _ _ => iprop(emp)

instance P_storable : (P (F := F)).IsStorable where
  st q d _ := match q with
    | 0 => (inferInstance : BI.Storable (upEmb : UEmb _ 𝕄) iprop(∃ f, v0Pts d f))
  dn q d _ := match q with
    | 0 => (inferInstance : BI.Storable (upEmb : UEmb _ 𝕄) (v0Pts d (onesBuf d)))
  go q d _ i := match q with
    | 0 => (inferInstance : BI.Storable (upEmb : UEmb _ 𝕄) iprop(∃ f, bandPts d (Fin.cast nSub_zero i) f))
  td q d _ i := match q with
    | 0 => (inferInstance : BI.Storable (upEmb : UEmb _ 𝕄) (bandPts d (Fin.cast nSub_zero i) (onesBuf d)))

end Cert.Proof.KB

end
-- ==== Proof.Bits.Bodies.lean ====
/-
  The two TensorCore kernels' bodies as triples: the first fills its 2048x512 block with 0.0; the second
  fills the first 512 rows of its 2048x512 block with the 512x512 block it reads and the other 1536 rows with 0.0.
-/
import proofs.«211883_g61933428412881_cont_9to1_m_917_22_alg».proof.Proof.Bits.Common
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Writes
import Idealize.ShloMosaic.Lib.ValueIdx
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)

variable {F : FTy → Type} [FloatOps F]

local notation "𝕄" => MT nD τ sig (HIx 1) (Elt F) ℕ UU ℕ

/-! ## The blocks the kernels leave -/

/-- A 2048x512 block of 0.0. -/
def zeroBlk : Vec F S2048x512 .f32 := fun _ => zeroF
/-- A 2048x512 block whose first 512 rows are the rows of `x` and whose other rows hold 0.0. -/
def mergeBlk (x : Vec F S512x512 .f32) : Vec F S2048x512 .f32 :=
  fun j => if h : (j 0).val < 512 then x (ix2 ⟨(j 0).val, h⟩ (j 1)) else zeroF

abbrev r1_0 : Rect S2048x512 := Rect.unit (s := S2048x512) ![0, 0] S2048x512.size inb_S2048x512_S2048x512_0_0
abbrev r2_0 : Rect S512x512 := Rect.unit (s := S512x512) ![0, 0] S512x512.size inb_S512x512_S512x512_0_0
abbrev r2_a : Rect S2048x512 := Rect.unit (s := S2048x512) ![0, 0] S512x512.size inb_S2048x512_S512x512_0_0
abbrev r2_b : Rect S2048x512 := Rect.unit (s := S2048x512) ![512, 0] S1536x512.size inb_S2048x512_S1536x512_512_0

theorem cover1 (p0 : r1_0.shape.Idx → Elt F .f32) (y : S2048x512.Idx) :
    ∃ pc ∈ ([⟨r1_0, p0⟩] : List (View.Piece (Elt F) S2048x512 .f32)), y ∈ pc.1.set :=
  View.cover_of_tiled [⟨r1_0, p0⟩] S2048x512.size (by rfl) y

theorem cover2 (pa : r2_a.shape.Idx → Elt F .f32) (pb : r2_b.shape.Idx → Elt F .f32) (y : S2048x512.Idx) :
    ∃ pc ∈ ([⟨r2_b, pb⟩, ⟨r2_a, pa⟩] : List (View.Piece (Elt F) S2048x512 .f32)), y ∈ pc.1.set :=
  by
  by_cases h : (y 0).val < 512
  · refine ⟨⟨r2_a, pa⟩, by simp, ?_⟩
    rw [Rect.mem_set_unit]
    intro a
    match a with
    | ⟨0, _⟩ => exact ⟨Nat.zero_le _, by show (y 0).val < 0 + 512; omega⟩
    | ⟨1, _⟩ => exact ⟨Nat.zero_le _, by have := Idealize.ShloMosaic.ValueIdx.idx2_lt1 y; show (y 1).val < 0 + 512; omega⟩
  · refine ⟨⟨r2_b, pb⟩, by simp, ?_⟩
    rw [Rect.mem_set_unit]
    intro a
    match a with
    | ⟨0, _⟩ => exact ⟨by show 512 ≤ (y 0).val; omega, by have := Idealize.ShloMosaic.ValueIdx.idx2_lt0 y; show (y 0).val < 512 + 1536; omega⟩
    | ⟨1, _⟩ => exact ⟨Nat.zero_le _, by have := Idealize.ShloMosaic.ValueIdx.idx2_lt1 y; show (y 1).val < 0 + 512; omega⟩

/-! ## The first kernel: a block of zeros -/

theorem sound_kernel1 (c : Dev nD) (E : Set ℕ) (i : grid1.Coords) (arg1 : Memref sig .tc .vmem S2048x512 .f32) (harg1 : arg1.IsWhole)
    (K' : PUnit → sProp 𝕄) :
    iprop((∃ d, owns (c : Thread nD τ) arg1 fullShare d)
        ∗ (owns (c : Thread nD τ) arg1 fullShare (zeroBlk (F := F)) -∗ K' ⟨⟩))
      ⊢ wp frame (wpE (defs₀ (F := F)) Variants.none c none) E (cc1__tc_zeros_body i arg1 harg1) K' := by
  simp only [cc1__tc_zeros_body_eq_skeleton]; unfold cc1__tc_zeros_body_skel
  unfold owns
  iintro ⟨⟨%d1, %f1, -, H1⟩, Hk⟩
  sl_exec
  sl_step
  iapply Hk
  iexists _; isplitr
  swap; · iexact H1
  ipureintro
  funext y
  refine View.read_writes_apply_of_pieces _ _ (zeroBlk (F := F)) _ (fun p hp x => ?_) y (cover1 _ y)
  rw [List.mem_singleton] at hp; subst hp; rfl

/-! ## The second kernel: the block read on top, zeros below -/

theorem sound_kernel2 (c : Dev nD) (E : Set ℕ) (i : grid2.Coords) (arg1 : Memref sig .tc .hbm S65536x512 .f32) (harg1 : arg1.IsWhole)
    (arg2 : Memref sig .tc .vmem S512x512 .f32) (harg2 : arg2.IsWhole) (arg3 : Memref sig .tc .vmem S2048x512 .f32) (harg3 : arg3.IsWhole)
    (x0 : Vec F S512x512 .f32) (K' : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (mergeBlk x0)) -∗ K' ⟨⟩))
      ⊢ wp frame (wpE (defs₀ (F := F)) Variants.none c none) E (cc2__merge_body i arg1 harg1 arg2 harg2 arg3 harg3) K' := by
  simp only [cc2__merge_body_eq_skeleton]; unfold cc2__merge_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  funext y
  refine View.read_writes_apply_of_pieces _ _ (mergeBlk (View.read (Elt F) arg2.view f0)) _ (fun p hp x => ?_) y (cover2 _ _ y)
  rcases List.mem_cons.mp hp with rfl | hp
  · have hge : ¬ ((r2_b.emb x) 0).val < 512 := by
      have e : ((r2_b.emb x) 0).val = 512 + 1 * (x 0).val := rfl
      omega
    dsimp only
    unfold mergeBlk
    rw [dif_neg hge]; rfl
  · rw [List.mem_singleton] at hp; subst hp
    have hx : (x 0).val < 512 := (x 0).isLt
    have hlt : ((r2_a.emb x) 0).val < 512 := by
      have e : ((r2_a.emb x) 0).val = 0 + 1 * (x 0).val := rfl
      omega
    dsimp only
    unfold mergeBlk k2_pay1
    rw [dif_pos hlt, shapeCast_self]
    show View.read (Elt F) arg2.view f0 (r2_0.toLoadRect.idx x) = _
    congr 1
    funext a
    apply Fin.ext
    match a with
    | ⟨0, _⟩ => rfl
    | ⟨1, _⟩ => rfl

end Cert.Proof.KB

end
-- ==== Proof.Bits.Regions.lean ====
/-
  The two pipelines' proof data. Pipeline 0 (31 points) writes a block of 0.0 at block row t + 1 of its array;
  pipeline 1 (one point) reads the 512x512 array whole and writes, at block row 0 of its array, that block on top
  of 1536 rows of 0.0. Each is stated at the contents `V` the TensorCore's buffers hold when the region is entered
  and at a bound `B` on the pairs the core's waits have recorded.
-/
import proofs.«211883_g61933428412881_cont_9to1_m_917_22_alg».proof.Proof.Bits.Common
import proofs.«211883_g61933428412881_cont_9to1_m_917_22_alg».proof.Proof.Bits.Bodies

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Regions

variable (V : (c : Dev nD) → (b : Ref sig .tc) → Buf (Elt F) ((c : Thread nD τ).loc b))
variable (B : Set (SemLoc sig × HIx 1))

/-- A region's invariant: the core's scoped buffers no window stages, at some contents each, and its generator
    register at some state. Neither kernel touches them. -/
def ΦR {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-! ## Pipeline 0: blocks of zeros -/

def dat1 (c : Dev nD) : Dat τ (Elt F) (HIx 1) ℕ UU ℕ cfg1 c where
  A w := V c (Pipeline.arrRef spec1 w)
  after w t := match w with
    | ⟨0, _⟩ => zeroBlk
  Φ _ := ΦR (F := F) spec1 c
  q _ := fullShare
  owed _ := 0
  recorded _ := B

theorem A_eq1 (c : Dev nD) (w : Fin cfg1.W) : (dat1 V B c).A w = V c (Pipeline.arrRef spec1 w) := by
  dsimp only [dat1]
theorem after1_0 (c : Dev nD) (t : Fin cfg1.N) : (dat1 V B c).after 0 t = zeroBlk := by dsimp only [dat1]

def bodyPre1 (c : Dev nD) (t : Fin cfg1.N) : sProp 𝕄 :=
  iprop((dat1 V B c).Φ t.castSucc ∗ (dat1 V B c).owesAt none t.castSucc
    ∗ (∃ d, owns (c : Thread nD τ) (st1_0 t) fullShare ((dat1 V B c).before 0 t d)))

def bodyPost1 (c : Dev nD) (t : Fin cfg1.N) : sProp 𝕄 :=
  iprop((dat1 V B c).Φ t.succ ∗ (dat1 V B c).owesAt none t.succ
    ∗ owns (c : Thread nD τ) (st1_0 t) fullShare ((dat1 V B c).after 0 t))

theorem sound_body1 (c : Dev nD) (t : Fin cfg1.N) :
    bodyPre1 V B c t ⊢ wp frame (wpE (defs₀ (F := F)) Variants.none c none) Set.univ (bodyAt1 t) (fun _ => bodyPost1 V B c t) := by
  unfold bodyPre1 bodyPost1 bodyAt1
  rw [show (dat1 V B c).Φ t.succ = (dat1 V B c).Φ t.castSucc from rfl,
    show (dat1 V B c).owesAt none t.succ = (dat1 V B c).owesAt none t.castSucc from rfl,
    after1_0]
  iintro ⟨HΦ, Ho, ⟨%d0, H0⟩⟩
  iapply (sound_kernel1 c Set.univ _ _ _ _)
  isplitl [H0]; · iexists _; iexact H0
  iintro H0
  isplitl [HΦ]; · iexact HΦ
  isplitl [Ho]; · iexact Ho
  iexact H0

theorem body_obligation1 (c : Dev nD) : BodyObligation (dat1 (F := F) V B c) (defs₀ (F := F)) Variants.none none Set.univ := fun t => by
  rw [bigSep_W1, bigSep_W1]
  exact sound_body1 V B c t

/-! ## Pipeline 1: the 512x512 block on top of zeros -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => mergeBlk (iblk2 V c 0 t)
  Φ _ := ΦR (F := F) spec2 c
  q _ := fullShare
  owed _ := 0
  recorded _ := B

theorem A_eq2 (c : Dev nD) (w : Fin cfg2.W) : (dat2 V B c).A w = V c (Pipeline.arrRef spec2 w) := by
  dsimp only [dat2]
theorem after2_0 (c : Dev nD) (t : Fin cfg2.N) : (dat2 V B c).after 0 t = iblk2 V c 0 t := by dsimp only [dat2]
theorem after2_1 (c : Dev nD) (t : Fin cfg2.N) : (dat2 V B c).after 1 t = mergeBlk (iblk2 V c 0 t) := by dsimp only [dat2]

theorem before2_0 (c : Dev nD) (t : Fin cfg2.N) (d) : (dat2 V B c).before 0 t d = iblk2 V c 0 t :=
  before2_0_of V (dat2 V B c) (A_eq2 V B c 0) (after2_0 V B c) t d

def bodyPre2 (c : Dev nD) (t : Fin cfg2.N) : sProp 𝕄 :=
  iprop((dat2 V B c).Φ t.castSucc ∗ (dat2 V B c).owesAt none t.castSucc
    ∗ (∃ d, owns (c : Thread nD τ) (st2_0 t) fullShare ((dat2 V B c).before 0 t d))
    ∗ (∃ d, owns (c : Thread nD τ) (st2_1 t) fullShare ((dat2 V B c).before 1 t d)))

def bodyPost2 (c : Dev nD) (t : Fin cfg2.N) : sProp 𝕄 :=
  iprop((dat2 V B c).Φ t.succ ∗ (dat2 V B c).owesAt none t.succ
    ∗ owns (c : Thread nD τ) (st2_0 t) fullShare ((dat2 V B c).after 0 t)
    ∗ owns (c : Thread nD τ) (st2_1 t) fullShare ((dat2 V B c).after 1 t))

theorem sound_body2 (c : Dev nD) (t : Fin cfg2.N) :
    bodyPre2 V B c t ⊢ wp frame (wpE (defs₀ (F := F)) Variants.none c none) Set.univ (bodyAt2 t) (fun _ => bodyPost2 V B c t) := by
  unfold bodyPre2 bodyPost2 bodyAt2
  simp only [before2_0]
  rw [show (dat2 V B c).Φ t.succ = (dat2 V B c).Φ t.castSucc from rfl,
    show (dat2 V B c).owesAt none t.succ = (dat2 V B c).owesAt none t.castSucc from rfl,
    after2_0, after2_1]
  iintro ⟨HΦ, Ho, ⟨%d0, H0⟩, ⟨%d1, H1⟩⟩
  iapply (sound_kernel2 c Set.univ _ _ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V B c) (defs₀ (F := F)) Variants.none none Set.univ := fun t => by
  rw [bigSep_W2, bigSep_W2]
  exact sound_body2 V B c t

end Regions

end Cert.Proof.KB

end
-- ==== Proof.Bits.Segs.lean ====
/-
  @main after the SparseCore call as three segments: the region of pipeline 0, the copy of its array into the
  result's buffer, the region of pipeline 1 — with the TensorCore's buffer contents at each boundary, a fold from the
  launch memory in which the 512x512 array already holds 1.0.
-/
import proofs.«211883_g61933428412881_cont_9to1_m_917_22_alg».proof.Proof.Bits.Common
import proofs.«211883_g61933428412881_cont_9to1_m_917_22_alg».proof.Proof.Bits.Regions

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The contents at the boundaries -/

abbrev v0' : DevRef τ sig := Proc.devRef .tc (main_v0 : Ref sig .tc)

/-- The pairs a TensorCore's waits may have recorded: those at or below the level of the one call's handshakes. -/
def Bd (c : Dev nD) : Set (SemLoc sig × HIx 1) := {p | (K (F := F)).lev (T c, p.1) p.2 ≤ 8}

/-- After the SparseCore call: the launch memory with the 512x512 array holding 1.0. -/
def W1 (c : Dev nD) : Valuation τ sig (Elt F) := Function.update (fun b => m (c, b)) v0' (onesBuf c)
abbrev V1 : (c : Dev nD) → (b : Ref sig .tc) → Buf (Elt F) ((c : Thread nD τ).loc b) := fun c b => W1 m c b
/-- After pipeline 0. -/
def W2 (c : Dev nD) : Valuation τ sig (Elt F) :=
  Pipeline.withArrays spec1 c (W1 m c) fun w => (dat1 (V1 m) (Bd (F := F) c) c).arrAt w cfg1.N
abbrev V2 : (c : Dev nD) → (b : Ref sig .tc) → Buf (Elt F) ((c : Thread nD τ).loc b) := fun c b => W2 m c b
/-- The copy of pipeline 0's array into the result's buffer. -/
abbrev copyOps : List (HloOp τ sig (Elt F)) := [StableHlo.unary main_v1 main_v2 id]
abbrev W3 : Dev nD → Valuation τ sig (Elt F) := fun c => StableHlo.after copyOps (W2 m c)
abbrev V3 : (c : Dev nD) → (b : Ref sig .tc) → Buf (Elt F) ((c : Thread nD τ).loc b) := fun c b => W3 m c b
/-- After pipeline 1. -/
def W4 (c : Dev nD) : Valuation τ sig (Elt F) :=
  Pipeline.withArrays spec2 c (W3 m c) fun w => (dat2 (V3 m) (Bd (F := F) c) c).arrAt w cfg2.N
abbrev V4 : (c : Dev nD) → (b : Ref sig .tc) → Buf (Elt F) ((c : Thread nD τ).loc b) := fun c b => W4 m c b

theorem W2_arr (c : Dev nD) (w : Fin cfg1.W) :
    W2 m c (Proc.devRef .tc (Pipeline.arrRef spec1 w)) = (dat1 (V1 m) (Bd (F := F) c) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem hF1 (c : Dev nD) (w : Fin cfg1.W) : (dat1 (V1 m) (Bd (F := F) c) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

theorem W4_arr (c : Dev nD) (w : Fin cfg2.W) :
    W4 m c (Proc.devRef .tc (Pipeline.arrRef spec2 w)) = (dat2 (V3 m) (Bd (F := F) c) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
theorem hF2 (c : Dev nD) (w : Fin cfg2.W) : (dat2 (V3 m) (Bd (F := F) c) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The proof data family and the thread state -/

def pdats : (p : Fin 2) → (c : Dev nD) → Dat τ (Elt F) (HIx 1) ℕ UU ℕ (Pipeline.pin (pcfgs (F := F)) adm p) c
  | ⟨0, _⟩ => fun c => dat1 (V1 m) (Bd (F := F) c) c
  | ⟨1, _⟩ => fun c => dat2 (V3 m) (Bd (F := F) c) c

abbrev Lk : GSem nD τ sig → Finset (HIx 1) := (K (F := F)).L
abbrev lvk : GSem nD τ sig → HIx 1 → ℕ := (K (F := F)).lev

/-- What rides beside the buffers through every segment: the generator register at some state, and the core owing
    nothing, its recorded pairs at or below the call's handshakes. -/
abbrev Rr (c : Dev nD) : sProp 𝕄 :=
  iprop((∃ r, prngReg c r) ∗ ∃ W, ⌜(K (F := F)).WBelow (T c) W 8⌝ ∗ owes (c : Thread nD τ) (0 : CellTallies nD τ sig (HIx 1)) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (Lk (F := F)) (lvk (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Rr (F := F))

theorem copyOps_sub : (copyOps : List (HloOp τ sig (Elt F))).Forall fun op => op.bufs ⊆ StableHlo.tcRefs τ sig :=
  StableHlo.unary_bufs_sub ..
theorem copyOps_fresh : (copyOps : List (HloOp τ sig (Elt F))).Forall fun op => op.fresh = ∅ := by
  simp only [List.Forall]; repeat' constructor

/-! ## The regions as segments -/

set_option backward.isDefEq.respectTransparency.types false in
/-- The region of pipeline 0: its arrays split out of the unscoped buffers at the entry contents and put back at the
    exit contents; the generator register into the invariant and out; nothing owed, the recorded pairs within the bound. -/
def reg1 : Pipeline.RegionSeg (pcfgs (F := F)) adm (pdats m) (none : HIx 1) defs₀ 𝒱₀ (Lk (F := F)) (lvk (F := F)) 0 where
  win := launch1.win.to₀
  block_pos := launch1.block_pos
  stage_whole := launch1.stage_whole
  K := PEmpty
  osem k := k.elim
  ho := Pipeline.OwnSemFacts.none _
  hbody c := (body_obligation1 (V1 m) (Bd (F := F) c) c).loose
  hwaits := Pipeline.hwaits_of_owed_zero _ _ _ _ (Lk (F := F)) (lvk (F := F)) 0 fun _ _ => rfl
  pre c := iprop(StableHlo.held (c : Thread nD τ) (Pipeline.ucRefs τ sig) (W1 m c) ∗ Rr (F := F) c)
  post c := iprop(StableHlo.held (c : Thread nD τ) (Pipeline.ucRefs τ sig) (W2 m c) ∗ Rr (F := F) c)
  X c := iprop(∃ r, prngReg c r)
  Y c := iprop(∃ r, prngReg c r)
  Z c := Pipeline.unscopedRest (Ix := HIx 1) (Name := ℕ) (U := UU) (Lvl := ℕ) spec1 c (V1 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m 0 c).Φ 0 = ΦR (F := F) spec1 c from rfl]; unfold ΦR
    iintro ⟨Hp, -, Hr⟩
    isplitl [Hr]; · iexact Hr
    iexact Hp
  hout c := by
    rw [Pipeline.ownSems0_none, show (pdats m 0 c).Φ (Fin.last _) = ΦR (F := F) spec1 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V1 m c) (V2 m c) ((pdats m 0 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro p hp
      rcases hW (Finset.mem_coe.mpr hp) with h | ⟨w, s, rfl⟩
      · exact h
      · exact Nat.zero_le _
    iexact HO

set_option backward.isDefEq.respectTransparency.types false in
/-- The region of pipeline 1: its arrays split out of the unscoped buffers at the entry contents and put back at the
    exit contents; the generator register into the invariant and out; nothing owed, the recorded pairs within the bound. -/
def reg2 : Pipeline.RegionSeg (pcfgs (F := F)) adm (pdats m) (none : HIx 1) defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := (body_obligation2 (V3 m) (Bd (F := F) c) c).loose
  hwaits := Pipeline.hwaits_of_owed_zero _ _ _ _ (Lk (F := F)) (lvk (F := F)) 1 fun _ _ => rfl
  pre c := iprop(StableHlo.held (c : Thread nD τ) (Pipeline.ucRefs τ sig) (W3 m c) ∗ Rr (F := F) c)
  post c := iprop(StableHlo.held (c : Thread nD τ) (Pipeline.ucRefs τ sig) (W4 m c) ∗ Rr (F := F) c)
  X c := iprop(∃ r, prngReg c r)
  Y c := iprop(∃ r, prngReg c r)
  Z c := Pipeline.unscopedRest (Ix := HIx 1) (Name := ℕ) (U := UU) (Lvl := ℕ) spec2 c (V3 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m 1 c).Φ 0 = ΦR (F := F) spec2 c from rfl]; unfold ΦR
    iintro ⟨Hp, -, Hr⟩
    isplitl [Hr]; · iexact Hr
    iexact Hp
  hout c := by
    rw [Pipeline.ownSems0_none, show (pdats m 1 c).Φ (Fin.last _) = ΦR (F := F) spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V3 m c) (V4 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro p hp
      rcases hW (Finset.mem_coe.mpr hp) with h | ⟨w, s, rfl⟩
      · exact h
      · exact Nat.zero_le _
    iexact HO

/-- @main after the SparseCore call, in order. -/
abbrev segs : List (Pipeline.Seg (pcfgs (F := F)) adm (pdats m) (none : HIx 1) defs₀ 𝒱₀ (Lk (F := F)) (lvk (F := F))) :=
  [ .region (reg1 m),
    .host (hseg copyOps copyOps_sub copyOps_fresh (W2 m)),
    .region (reg2 m) ]

end Cert.Proof.KB

end
-- ==== Proof.Bits.Ghost.lean ====
/-
  The launch element of the ghost state. The proof's resource algebra is the product of the handshakes' rounds, the two
  pipelines' rounds and the transfers' counters; at launch the first component is the rounds library's launch element at
  the handshake cells, the second its launch element at the pipelines' staging cells, the third the unit. Owning the
  whole is owning each component through its embedding; the pipelines' component is dealt, per device, into the ghost
  state of the two pipelines' staging cells (each cell's launch state, its owner at round 0, round 0 reached, and the
  duty tokens of the transfers the loops issue); the handshakes' component is kept whole; the call carries nothing else.
-/
import proofs.«211883_g61933428412881_cont_9to1_m_917_22_alg».proof.Proof.Bits.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch element: the handshake cells' rounds, the staging cells' rounds, no transfer counted. -/
def u₀ : UU := (initOf (K (F := F)).hsCells (K (F := F)).hsToks, (initOf (Pipeline.cells cfgs cellOf_inj) (Pipeline.launchToks cfgs cellOf_inj), 1))

/-- The two pipelines' staging-cell ghost state on device `d`, as the launch deals it. -/
def ghostG (d : Dev nD) : sProp 𝕄 := Pipeline.ghostOn (pcfgs (F := F)) adm EP Finset.univ d

/-- Per device, the cells' ghost state and the duty tokens of every pipeline are the ghost state of all pipelines. -/
theorem ghost_regroup :
    iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
      ⊢ bigSep Finset.univ fun d : Dev nD => ghostG (F := F) d := by
  rw [← bigSep_sep']
  refine bigSep_mono fun c _ => ?_
  unfold ghostG Pipeline.ghostOn Pipeline.PerCore.ghostOn
  rw [bigSep_sep']
  exact BI.Entails.refl _

/-- The pipelines' component of the launch element, owned through its embedding, deals every device the ghost state
    of the staging cells and the duty tokens of the loops' transfers. -/
theorem fund_pipes :
    (BI.own (((Emb.inl : Emb UP (UP × Counters)).trans embR) (initOf (Pipeline.cells cfgs cellOf_inj) (Pipeline.launchToks cfgs cellOf_inj))) : sProp 𝕄)
      ⊢ iprop(|==> ((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄)))) :=
  Pipeline.fund_ghost cfgs (EP (F := F)) cellOf_inj

/-- A separating product of `emp` over any finite index set is `emp`. -/
theorem bigSep_emp_eq {I : Type} (s : Finset I) : (bigSep s fun _ => iprop(emp)) = (iprop(emp) : sProp 𝕄) := bigSep_emp_const s

variable [FloatOps F]

/-- Owning the launch element yields the handshakes' launch element whole, every device's staging-cell ghost state, and
    the nothing the call carries besides. -/
theorem hu₀ : (ownU (u₀ (F := F)) : sProp 𝕄) ⊢ |={Set.univ}=> iprop(BI.own (EH (initOf (K (F := F)).hsCells (K (F := F)).hsToks)) ∗ (bigSep Finset.univ fun d : Dev nD => ghostG (F := F) d) ∗ bigSep Finset.univ fun thr : Thread nD τ => bigSep Finset.univ fun q : Fin 1 => (P (F := F)).x q thr) := by
  unfold u₀
  iintro Hu
  ihave H := (ownU_pair _ _) $$ Hu
  icases H with ⟨HH, HR⟩
  ihave H2 := (own_pair_emb embR _ _) $$ HR
  icases H2 with ⟨HP, -⟩
  imod (fund_pipes (F := F)) $$ HP with ⟨Hg, Ht⟩
  imodintro
  isplitl [HH]; · iexact HH
  isplitl [Hg Ht]
  · iapply (ghost_regroup (F := F))
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp_eq (F := F) _, bigSep_emp_eq]]
  iempintro

end Cert.Proof.KB

end
-- ==== Proof.Bits.Main.lean ====
/-
  @main on the TensorCore: the SparseCore call hands the 512x512 array out at any contents and takes it back holding
  1.0; the rest of @main is the three segments, run from the boundary valuation in which that array holds 1.0; what is
  left at the end are the argument array and the result's buffer at the last boundary's contents.
-/
import proofs.«211883_g61933428412881_cont_9to1_m_917_22_alg».proof.Proof.Bits.Common
import proofs.«211883_g61933428412881_cont_9to1_m_917_22_alg».proof.Proof.Bits.Segs
import proofs.«211883_g61933428412881_cont_9to1_m_917_22_alg».proof.Proof.Bits.Ghost

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

abbrev a' : DevRef τ sig := Proc.devRef .tc (main_arg0 : Ref sig .tc)
abbrev v2' : DevRef τ sig := Proc.devRef .tc (main_v2 : Ref sig .tc)

/-- The launch valuation of device `d`. -/
abbrev W0 (d : Dev nD) : Valuation τ sig (Elt F) := fun b => m (d, b)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

omit [FloatOps F] in
/-- The unscoped buffers with the 512x512 array's taken out. -/
theorem held_take (d : Dev nD) (W : Valuation τ sig (Elt F)) :
    (StableHlo.held (T d) (Pipeline.ucRefs τ sig) W : sProp 𝕄)
      = iprop(((d, v0') ↦{fullShare} W v0') ∗ StableHlo.held (T d) (Pipeline.ucRefs τ sig \ {v0'}) W) := by
  rw [StableHlo.held_sub_split (T d) (T := {v0'}) (Finset.singleton_subset_iff.mpr (mem_uc main_v0 (by decide))) W]
  congr 1
  unfold StableHlo.held
  rw [bigSep_singleton]

theorem W1_v0 (d : Dev nD) : W1 m d v0' = onesBuf d := Function.update_self _ _ _

theorem held_rest_W1 (d : Dev nD) :
    (StableHlo.held (T d) (Pipeline.ucRefs τ sig \ {v0'}) (W1 m d) : sProp 𝕄) = StableHlo.held (T d) (Pipeline.ucRefs τ sig \ {v0'}) (W0 m d) :=
  StableHlo.held_congr (T d) fun b hb => Function.update_of_ne (fun e => (Finset.mem_sdiff.mp hb).2 (Finset.mem_singleton.mpr e)) _ _

omit [FloatOps F] in
/-- The argument array and the result's buffer out of the unscoped buffers. -/
theorem held_two (d : Dev nD) (W : Valuation τ sig (Elt F)) :
    (StableHlo.held (T d) (Pipeline.ucRefs τ sig) W : sProp 𝕄) ⊢ iprop(((d, a') ↦{fullShare} W a') ∗ ((d, v2') ↦{fullShare} W v2')) := by
  rw [StableHlo.held_sub_split (T d) (T := {a', v2'}) (by
    intro b hb
    rcases Finset.mem_insert.mp hb with rfl | hb
    · exact mem_uc main_arg0 (by decide)
    · rw [Finset.mem_singleton] at hb; subst hb; exact mem_uc main_v2 (by decide)) W]
  unfold StableHlo.held
  rw [SparseCore.bigSep_insert' (by decide), bigSep_singleton]
  exact sep_elim_left

theorem st0_eq (d : Dev nD) : (bigSep Finset.univ fun c : Fin ((K (F := F)).nCore 0) => (P (F := F)).st 0 d c) = iprop(∃ f, v0Pts d f) := by
  show (bigSep (Finset.univ : Finset (Fin 1)) fun c => (P (F := F)).st 0 d c) = _
  rw [show (Finset.univ : Finset (Fin 1)) = {0} by decide, bigSep_singleton]; rfl
theorem dn0_eq (d : Dev nD) : (bigSep Finset.univ fun c : Fin ((K (F := F)).nCore 0) => (P (F := F)).dn 0 d c) = v0Pts d (onesBuf d) := by
  show (bigSep (Finset.univ : Finset (Fin 1)) fun c => (P (F := F)).dn 0 d c) = _
  rw [show (Finset.univ : Finset (Fin 1)) = {0} by decide, bigSep_singleton]; rfl

/-- @main is the SparseCore call followed by the three segments. -/
theorem main_tail (d : Dev nD) :
    main (F := F) d = ((K (F := F)).run d 0 >>= fun _ => SparseCore.liftProg (Pipeline.Seg.run (segs m))) := rfl

/-- The TensorCore's handshake state after the one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
/-- After the one call the TensorCore owes nothing. -/
theorem tcSt_one (d : Dev nD) :
    ((K (F := F)).tcSt EH d 1 : sProp 𝕄)
      = iprop((∃ W, ⌜(K (F := F)).WBelow (T d) W 8⌝ ∗ owes (T d) (0 : CellTallies nD τ sig (HIx 1)) W) ∗ tcRest (F := F) d) := by
  unfold SparseCore.Cfg.tcSt tcRest
  rw [(K (F := F)).Otc_end d (le_refl 1)]

/-- What @main leaves: the argument array and the result's buffer at the last boundary's contents. -/
abbrev FINW (d : Dev nD) : sProp 𝕄 := iprop(((d, a') ↦{fullShare} W4 m d a') ∗ ((d, v2') ↦{fullShare} W4 m d v2'))

set_option backward.isDefEq.respectTransparency.types false in
theorem hmain (κ : GSem nD τ sig → ℕ) (d : Dev nD) :
    iprop((K (F := F)).ctx EH (P (F := F)) κ ∗ (K (F := F)).tcSt EH d 0 ∗ (K (F := F)).tcRes m ρ d ∗ ghostG (F := F) d)
      ⊢ wp frame (wpE ((K (F := F)).defs (D (F := F))) 𝒱 (SparseCore.T d) none) Set.univ (main d)
          fun _ => iprop((K (F := F)).tcSt EH d 1 ∗ FINW m d) := by
  unfold SparseCore.Cfg.tcRes ghostG
  rw [main_tail m d, wp_bind,
    show unscopedBufs d (fun b => m ((SparseCore.T d).loc b)) = StableHlo.held (SparseCore.T d) (Pipeline.ucRefs τ sig) (W0 m d)
      from Pipeline.unscopedBufs_held d (W0 m d), held_take]
  iintro ⟨#Hctx, Hst, ⟨Hb, ⟨H0, Hrest⟩, -, Hprng⟩, Hg⟩
  iapply ((K (F := F)).wp_run (D (F := F)) 𝒱 (EH := EH) (P := P (F := F)) κ d 0) $$ [Hst H0 Hb Hrest Hprng Hg]
  isplitr; · iexact Hctx
  isplitl [Hst]; · iexact Hst
  isplitl [H0]
  · rw [st0_eq]; iexists _; iexact H0
  rw [show (((0 : Fin 1) : ℕ) + 1) = 1 from rfl]
  iintro ⟨Hst, Hdn⟩
  ihave Hdn' := (Entails.of_eq (dn0_eq (F := F) d)) $$ Hdn
  ihave Hst' := (Entails.of_eq (tcSt_one (F := F) d)) $$ Hst
  icases Hst' with ⟨⟨%W, %hW, HO⟩, Htc⟩
  ihave Hlev := (SparseCore.Cfg.ctx_levAts κ) $$ Hctx
  iapply ((K (F := F)).wp_liftProg (D (F := F)) 𝒱 (SparseCore.T d) Set.univ none (Pipeline.Seg.run (segs m)) _)
  iapply (Pipeline.wp_segs (pcfgs (F := F)) adm (pdats m) (none : HIx 1) cellOf_inj EP defs₀ 𝒱₀ (Lk (F := F)) (lvk (F := F)) d (segs m) Finset.univ
      (fun c => iprop(StableHlo.held (c : Thread nD τ) (Pipeline.ucRefs τ sig) (W1 m c) ∗ Rr (F := F) c))
      (fun c => iprop(StableHlo.held (c : Thread nD τ) (Pipeline.ucRefs τ sig) (W4 m c) ∗ Rr (F := F) c))
      (by simp only [segs, Pipeline.Seg.pipes_host, Pipeline.Seg.pipes_region, Pipeline.Seg.pipes_nil]; decide)
      (fun p _ => Finset.mem_univ p)
      ⟨fun _ => .rfl, fun _ => .rfl, fun _ => .rfl, fun _ => .rfl⟩)
  isplitl [Htc]
  · iintro ⟨Hb, Hh, Hp, %W', %hW', HO⟩
    isplitl [Htc HO]
    · rw [tcSt_one]
      isplitl [HO]
      · iexists W'; isplitr; · ipureintro; exact hW'
        iexact HO
      iexact Htc
    · iapply (held_two d (W4 m d)); iexact Hh
  isplitl [Hb]; · iexact Hb
  isplitl [Hrest Hdn' Hprng HO]
  · isplitl [Hrest Hdn']
    · rw [held_take, W1_v0, held_rest_W1]
      isplitl [Hdn']; · iexact Hdn'
      iexact Hrest
    · isplitl [Hprng]; · iexists _; iexact Hprng
      iexists W; isplitr; · ipureintro; exact hW
      iexact HO
  isplitr; · iexact Hlev
  iexact Hg

end Cert.Proof.KB

end
-- ==== Proof.Bits.Tile.lean ====
/-
  The SparseCore tile's task: tile `i` is handed band `i` of the 512x512 array (rows `32 i … 32 i + 31`) at any
  contents, fills its 32x512 scratch with the word 1.0 (a loop of 32 trips, trip `k` storing the 32 pieces of 16
  columns of row `k`), copies the scratch onto its band and waits for the copy: the band comes back holding 1.0.
  Beside it, how the whole array splits into the sixteen bands and is joined from them.
-/
import proofs.«211883_g61933428412881_cont_9to1_m_917_22_alg».proof.Proof.Bits.Common
import Idealize.ShloMosaic.Lib.Writes
import Idealize.ShloMosaic.Lib.Exec
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The sixteen bands -/

theorem bandSet_eq (i : Fin 16) : bandSet i = (band i).set := by
  show ((View.whole (main_v0_scv : Ref sig .scVector)).slice (band i)).set = _
  rw [View.set_slice]; exact Finset.map_refl
theorem bands_disjoint : ∀ i ∈ (Finset.univ : Finset (Fin 16)), ∀ j ∈ (Finset.univ : Finset (Fin 16)), i ≠ j → Disjoint (bandSet i) (bandSet j) :=
  fun i _ j _ h => by rw [bandSet_eq, bandSet_eq]; exact Rect.part_disjoint hdiv h
theorem bands_cover : (Finset.univ : Finset (Fin 16)).biUnion bandSet = Finset.univ :=
  (Finset.biUnion_congr rfl fun i _ => bandSet_eq i).trans (Rect.biUnion_part hdiv)

/-- The whole array at `f` is its sixteen bands, each at `f`. -/
theorem v0Pts_bands (d : Dev nD) (f : Buf (Elt F) (v0Loc d)) :
    (v0Pts d f : sProp 𝕄) = bigSep Finset.univ fun i : Fin 16 => bandPts d i f := by
  unfold v0Pts bandPts
  rw [← pointsTo_biUnion Finset.univ (ℓ := v0Loc d) bandSet bands_disjoint, bands_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem band_any (d : Dev nD) (i : Fin 16) (f : Buf (Elt F) (v0Loc d)) : (bandPts d i f : sProp 𝕄) ⊢ iprop(∃ f, bandPts d i f) := by
  iintro Hi; iexists f; iexact Hi
/-- Bands held at one contents are bands held at some contents. -/
theorem bands_any (d : Dev nD) (f : Buf (Elt F) (v0Loc d)) :
    (bigSep Finset.univ fun i : Fin 16 => bandPts d i f) ⊢ (bigSep Finset.univ fun i : Fin 16 => iprop(∃ f, bandPts d i f) : sProp 𝕄) :=
  bigSep_mono fun i _ => band_any d i f

variable [FloatOps F]

/-- The whole array at any contents goes to the tiles band by band; sixteen bands of 1.0 are the whole array of 1.0. -/
theorem vecSplit : (K (F := F)).VecSplit' (P (F := F)) 0 := by
  intro d c
  show iprop(∃ f, v0Pts d f) ⊢ |={Set.univ}=> iprop(
      (bigSep Finset.univ fun i : Fin ((K (F := F)).nSub 0) => iprop(∃ f, bandPts d (Fin.cast nSub_zero i) f))
      ∗ ((bigSep Finset.univ fun i : Fin ((K (F := F)).nSub 0) => bandPts d (Fin.cast nSub_zero i) (onesBuf d)) -∗ v0Pts d (onesBuf d)))
  rw [bigSep_tasks (F := F) (fun i => iprop(∃ f, bandPts d i f)), bigSep_tasks (F := F) (fun i => bandPts d i (onesBuf d))]
  iintro ⟨%f, H⟩
  ihave H' := (Entails.of_eq (v0Pts_bands (F := F) d f)) $$ H
  imodintro
  isplitl [H']
  · iapply (bands_any (F := F) d f); iexact H'
  iintro Htd
  iapply (Entails.of_eq (v0Pts_bands (F := F) d (onesBuf d)).symm); iexact Htd

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev c0cell (c : Fin τ.nSC) (i : Fin τ.nSub) : GSem nD τ sig := (V d c i, .dma cc0_scratch1.sem)

/-- The band as the task slices it out of the array. -/
abbrev bandK (L : grid0.Coords) : Rect S512x512 := Rect.unit (s := S512x512) (k0_off33 L) S32x512.size (k0_off33_inb L)
abbrev oBandK (L : grid0.Coords) : Memref sig .scVector .hbm S32x512 .f32 :=
  (oV : Memref sig .scVector .hbm S512x512 .f32).slice (bandK L) (fun _ => rfl)

omit [FloatOps F] in
theorem bound_zero : grid0.bound 0 = 1 := rfl

omit [FloatOps F] in
theorem bandK_eq : bandK L = band (jL L) := by
  have h0 : (L 0).val = 0 := by have h : (L 0).val < 1 := (L 0).isLt; omega
  unfold bandK band Rect.part Rect.block
  congr 1 <;> funext a
  · rw [k0_off33_eq]
    match a with
    | 0 => simp [Shape.partIx, Shape.partSize, h0]; omega
    | 1 => simp [Shape.partIx, Shape.partSize]
  · match a with
    | 0 => simp [Shape.partSize]
    | 1 => simp [Shape.partSize]

omit [FloatOps F] in
theorem set_oBandK : (oBandK L).view.set = bandSet (jL L) := by
  show ((oV : Memref sig .scVector .hbm S512x512 .f32).view.slice (bandK L)).set
    = ((oV : Memref sig .scVector .hbm S512x512 .f32).view.slice (band (jL L))).set
  rw [bandK_eq]

omit [FloatOps F] in
theorem pts_oBandK (f : Buf (Elt F) (v0Loc d)) :
    ((oBandK L).view.loc (V d (cV L) (jV L)) ↦[(oBandK L).view.set]{fullShare} f : sProp 𝕄) = v0Loc d ↦[bandSet (jL L)]{fullShare} f := by
  rw [set_oBandK]
omit [FloatOps F] in
theorem pts_sW (f : Buf (Elt F) ((V d (cV L) (jV L)).loc cc0_scratch0)) :
    ((sW : Memref sig .scVector .vmem S32x512 .f32).view.loc (V d (cV L) (jV L)) ↦{fullShare} f : sProp 𝕄) = (V d (cV L) (jV L)).loc cc0_scratch0 ↦{fullShare} f := rfl

omit [FloatOps F] in
theorem ownSems0_V :
    (ownSems0 (V d (cV L) (jV L)) : sProp 𝕄)
      = iprop(semVal (c0cell d (cV L) (jV L)) 0 ∗ bigSep ((ownCells (V d (cV L) (jV L))).erase (c0cell d (cV L) (jV L))) fun g => semVal g 0) := by
  unfold SparseCore.Cfg.ownSems0
  exact SparseCore.bigSep_erase' ((mem_ownCells (g := c0cell d (cV L) (jV L))).mpr ⟨rfl, by
    show (SemLoc.dma cc0_scratch1.sem : SemLoc sig).isScoped .scVector = true; decide⟩)

omit [FloatOps F] in
/-- The scratch is among the subcore's own buffers: it is that one, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## A row of the scratch filled by its 32 pieces -/

omit [FloatOps F] in
/-- A 1x16 piece at offsets `![r, c]` is the columns `c … c + 15` of row `r`. -/
theorem mem_piece {off : Fin 2 → Nat} {inb : ∀ a, off a + S1x16.size a ≤ S32x512.size a} {r c : Nat} (h : off = ![r, c]) (y : S32x512.Idx) :
    y ∈ (Rect.unit (s := S32x512) off S1x16.size inb).set ↔ (y 0).val = r ∧ c ≤ (y 1).val ∧ (y 1).val < c + 16 := by
  subst h
  have h0 : S1x16.size 0 = 1 := rfl
  have h1 : S1x16.size 1 = 16 := rfl
  rw [Rect.mem_set_unit, Fin.forall_fin_two]
  simp only [Matrix.cons_val_zero, Matrix.cons_val_one, Matrix.head_cons, h0, h1]
  omega

/-- The first columns of the 32 pieces of a row, last stored first. -/
abbrev cols32 : List Nat := [496, 480, 464, 448, 432, 416, 400, 384, 368, 352, 336, 320, 304, 288, 272, 256, 240, 224, 208, 192, 176, 160, 144, 128, 112, 96, 80, 64, 48, 32, 16, 0]
omit [FloatOps F] in
theorem cols32_mem : ∀ q : Fin 32, 16 * q.val ∈ cols32 := by decide
omit [FloatOps F] in
theorem cols32_cover (n : Nat) (hn : n < 512) : ∃ c ∈ cols32, c ≤ n ∧ n < c + 16 :=
  ⟨16 * (n / 16), cols32_mem ⟨n / 16, by omega⟩, by omega, by omega⟩

/-- Every piece of the list is a 1x16 piece of row `r` holding 1.0; their first columns are listed beside them. -/
inductive RowPieces (r : Nat) : List (View.Piece (Elt F) S32x512 .f32) → List Nat → Prop
  | nil : RowPieces r [] []
  | cons {p : View.Piece (Elt F) S32x512 .f32} {L : List (View.Piece (Elt F) S32x512 .f32)} {c : Nat} {C : List Nat} :
      (∀ x, p.2 x = (oneF : F .f32)) → (∀ y : S32x512.Idx, y ∈ p.1.set ↔ (y 0).val = r ∧ c ≤ (y 1).val ∧ (y 1).val < c + 16) →
      RowPieces r L C → RowPieces r (p :: L) (c :: C)

theorem RowPieces.vals {r : Nat} {L : List (View.Piece (Elt F) S32x512 .f32)} {C : List Nat} (h : RowPieces (F := F) r L C) :
    ∀ p ∈ L, ∀ x : p.1.shape.Idx, p.2 x = (fun _ : S32x512.Idx => (oneF : F .f32)) (p.1.emb x) := by
  induction h with
  | nil => intro p hp; exact absurd hp List.not_mem_nil
  | cons hv _ _ ih =>
    intro p hp
    rcases List.mem_cons.mp hp with rfl | hp
    · exact hv
    · exact ih p hp

theorem RowPieces.row {r : Nat} {L : List (View.Piece (Elt F) S32x512 .f32)} {C : List Nat} (h : RowPieces (F := F) r L C) :
    ∀ p ∈ L, ∀ y : S32x512.Idx, y ∈ p.1.set → (y 0).val = r := by
  induction h with
  | nil => intro p hp; exact absurd hp List.not_mem_nil
  | cons _ hm _ ih =>
    intro p hp y hy
    rcases List.mem_cons.mp hp with rfl | hp
    · exact ((hm y).mp hy).1
    · exact ih p hp y hy

theorem RowPieces.cover {r : Nat} {L : List (View.Piece (Elt F) S32x512 .f32)} {C : List Nat} (h : RowPieces (F := F) r L C)
    (y : S32x512.Idx) (hy : (y 0).val = r) : (∃ c ∈ C, c ≤ (y 1).val ∧ (y 1).val < c + 16) → ∃ p ∈ L, y ∈ p.1.set := by
  induction h with
  | nil => rintro ⟨c, hc, -⟩; exact absurd hc List.not_mem_nil
  | cons _ hm _ ih =>
    rintro ⟨c, hc, hlo, hhi⟩
    rcases List.mem_cons.mp hc with rfl | hc
    · exact ⟨_, List.mem_cons_self, (hm y).mpr ⟨hy, hlo, hhi⟩⟩
    · obtain ⟨p, hp, hmem⟩ := ih ⟨c, hc, hlo, hhi⟩
      exact ⟨p, List.mem_cons_of_mem _ hp, hmem⟩

/-- After the 32 pieces of row `r` are stored, row `r` reads 1.0 and every other row what it held. -/
theorem read_row_fill {κ : Kind} {sp : Space} (v : View sig κ sp S32x512 .f32) (g : v.ty.Contents (Elt F)) {r : Nat}
    {L : List (View.Piece (Elt F) S32x512 .f32)} {C : List Nat} (h : RowPieces (F := F) r L C)
    (hC : ∀ n, n < 512 → ∃ c ∈ C, c ≤ n ∧ n < c + 16) (y : S32x512.Idx) :
    v.read (Elt F) (v.writes (Elt F) g L) y = if (y 0).val = r then (oneF : F .f32) else v.read (Elt F) g y := by
  by_cases hy : (y 0).val = r
  · rw [if_pos hy]
    exact View.read_writes_apply_of_pieces v g (fun _ => (oneF : F .f32)) L h.vals y (h.cover y hy (hC _ (y 1).isLt))
  · rw [if_neg hy]
    exact View.read_writes_apply_of_forall_not_mem v g y L fun p hp hmem => hy (h.row p hp y hmem)

/-- Before trip `k` the scratch holds 1.0 on its rows below `k`. -/
def inv (k : Nat) (_ : Unit) : sProp 𝕄 :=
  iprop(∃ g : Buf (Elt F) ((V d (cV L) (jV L)).loc cc0_scratch0),
    ⌜∀ y : S32x512.Idx, (y 0).val < k → (sW : Memref sig .scVector .vmem S32x512 .f32).view.read (Elt F) g y = oneF⌝
      ∗ (V d (cV L) (jV L)).loc cc0_scratch0 ↦{fullShare} g)

omit [FloatOps F] in
theorem trips_eq : Scf.trips k0_t1_loop.lb k0_t1_loop.ub k0_t1_loop.st = 32 := by decide

/-- What the copy lands in the band, the scratch holding 1.0 everywhere, is the array of 1.0 there. -/
theorem landed_ones (f : Buf (Elt F) (v0Loc d)) (w : S32x512.Idx → Elt F .f32) (hw : ∀ x, w x = (oneF : F .f32)) :
    ∀ i ∈ bandSet (jL L), (oBandK L).view.writes (Elt F) f [⟨Rect.whole S32x512, w⟩] i = onesBuf d i := by
  intro i hi
  rw [← set_oBandK] at hi
  obtain ⟨y, -, rfl⟩ := Finset.mem_map.mp hi
  obtain ⟨x, rfl⟩ := (Rect.whole S32x512).exists_idx_of_mem (show y ∈ (Rect.whole S32x512).set by rw [Rect.set_whole]; exact Finset.mem_univ y)
  have h1 := View.read_writes_cons_emb (oBandK L).view f (Rect.whole S32x512) w [] x
  rw [View.read_apply] at h1
  exact (cast_eq _ _).symm.trans (h1.trans (hw x))

/-- The task on vector subcore `(L 0, L 1)` of device `d`: the scratch filled with 1.0 piece by piece, copied onto
    band `L 1`, the copy waited for. -/
theorem tile_body (hF : (K (F := F)).Facts) (O : CellTallies nD τ sig (HIx 1)) (W : Waits sig (HIx 1)) (hO : ∀ g, O g none = 0) :
    iprop(levAts (K (F := F)).L (K (F := F)).lev ∗ emp
        ∗ (∃ f, bandPts d (jL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_ones_body L oV (Memref.isWhole_whole _) sW (Memref.isWhole_whole _) cc0_scratch1)
          fun _ => iprop(bandPts d (jL L) (onesBuf d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_ones_body_eq_skeleton]; unfold cc0__sc_ones_body_skel
  rw [(K (F := F)).scopedBufs_V hF d (cV L) (jV L), SparseCore.Cfg.scopedSems0_V (Val := Elt F) d (cV L) (jV L), ownSems0_V, ownBufs_V]
  iintro ⟨#Hlv, -, ⟨%f, Hb⟩, ⟨⟨%fs, Hs⟩, Hbufs⟩, ⟨Hsem, Hsems⟩, HO⟩
  ihave Hmw := ((K (F := F)).mayWaits_none (thr := V d (cV L) (jV L)) hO) $$ Hlv
  sl_for (inv (F := F) d L) $$ [Hs]
  case region =>
    intro k _
    unfold inv
    iintro ⟨%g, %hg, Hs⟩
    ihave Hs' := (Entails.of_eq (pts_sW (F := F) d L g).symm) $$ Hs
    sl_exec
    sl_step
    iexists _
    isplitr
    rotate_left
    · iexact Hs'
    · ipureintro; intro y hy
      refine Eq.trans (read_row_fill (F := F) _ _ (r := k.val) (C := cols32) ?h cols32_cover y) ?_
      case h =>
        exact .cons (fun _ => rfl) (mem_piece (inb := k0_off32_inb k) (k0_off32_eq k)) <|
          .cons (fun _ => rfl) (mem_piece (inb := k0_off31_inb k) (k0_off31_eq k)) <|
          .cons (fun _ => rfl) (mem_piece (inb := k0_off30_inb k) (k0_off30_eq k)) <|
          .cons (fun _ => rfl) (mem_piece (inb := k0_off29_inb k) (k0_off29_eq k)) <|
          .cons (fun _ => rfl) (mem_piece (inb := k0_off28_inb k) (k0_off28_eq k)) <|
          .cons (fun _ => rfl) (mem_piece (inb := k0_off27_inb k) (k0_off27_eq k)) <|
          .cons (fun _ => rfl) (mem_piece (inb := k0_off26_inb k) (k0_off26_eq k)) <|
          .cons (fun _ => rfl) (mem_piece (inb := k0_off25_inb k) (k0_off25_eq k)) <|
          .cons (fun _ => rfl) (mem_piece (inb := k0_off24_inb k) (k0_off24_eq k)) <|
          .cons (fun _ => rfl) (mem_piece (inb := k0_off23_inb k) (k0_off23_eq k)) <|
          .cons (fun _ => rfl) (mem_piece (inb := k0_off22_inb k) (k0_off22_eq k)) <|
          .cons (fun _ => rfl) (mem_piece (inb := k0_off21_inb k) (k0_off21_eq k)) <|
          .cons (fun _ => rfl) (mem_piece (inb := k0_off20_inb k) (k0_off20_eq k)) <|
          .cons (fun _ => rfl) (mem_piece (inb := k0_off19_inb k) (k0_off19_eq k)) <|
          .cons (fun _ => rfl) (mem_piece (inb := k0_off18_inb k) (k0_off18_eq k)) <|
          .cons (fun _ => rfl) (mem_piece (inb := k0_off17_inb k) (k0_off17_eq k)) <|
          .cons (fun _ => rfl) (mem_piece (inb := k0_off16_inb k) (k0_off16_eq k)) <|
          .cons (fun _ => rfl) (mem_piece (inb := k0_off15_inb k) (k0_off15_eq k)) <|
          .cons (fun _ => rfl) (mem_piece (inb := k0_off14_inb k) (k0_off14_eq k)) <|
          .cons (fun _ => rfl) (mem_piece (inb := k0_off13_inb k) (k0_off13_eq k)) <|
          .cons (fun _ => rfl) (mem_piece (inb := k0_off12_inb k) (k0_off12_eq k)) <|
          .cons (fun _ => rfl) (mem_piece (inb := k0_off11_inb k) (k0_off11_eq k)) <|
          .cons (fun _ => rfl) (mem_piece (inb := k0_off10_inb k) (k0_off10_eq k)) <|
          .cons (fun _ => rfl) (mem_piece (inb := k0_off9_inb k) (k0_off9_eq k)) <|
          .cons (fun _ => rfl) (mem_piece (inb := k0_off8_inb k) (k0_off8_eq k)) <|
          .cons (fun _ => rfl) (mem_piece (inb := k0_off7_inb k) (k0_off7_eq k)) <|
          .cons (fun _ => rfl) (mem_piece (inb := k0_off6_inb k) (k0_off6_eq k)) <|
          .cons (fun _ => rfl) (mem_piece (inb := k0_off5_inb k) (k0_off5_eq k)) <|
          .cons (fun _ => rfl) (mem_piece (inb := k0_off4_inb k) (k0_off4_eq k)) <|
          .cons (fun _ => rfl) (mem_piece (inb := k0_off3_inb k) (k0_off3_eq k)) <|
          .cons (fun _ => rfl) (mem_piece (inb := k0_off2_inb k) (k0_off2_eq k)) <|
          .cons (fun _ => rfl) (mem_piece (inb := k0_off1_inb k) (k0_off1_eq k)) <|
          .nil
      by_cases h : (y 0).val = k.val
      · rw [if_pos h]
      · rw [if_neg h]; exact hg y (by omega)
  · unfold inv
    iexists fs; isplitr
    · ipureintro; intro y hy; exact absurd hy (Nat.not_lt_zero _)
    · iexact Hs
  iintro %_ HI
  unfold inv
  icases HI with ⟨%g, %hg, Hs⟩
  ihave Hs' := (Entails.of_eq (pts_sW (F := F) d L g).symm) $$ Hs
  ihave Hb' := (Entails.of_eq (pts_oBandK (F := F) d L f).symm) $$ Hb
  sl_exec
  sl_step
  have hw : ∀ x, tile_body.sl.dma0 d L g x = (oneF : F .f32) := fun x => hg x (by rw [trips_eq]; exact (x 0).isLt)
  isplitl [Hb']
  · ihave Hb := (Entails.of_eq (pts_oBandK (F := F) d L _)) $$ Hb'
    ihave Hb2 := (Entails.of_eq (pointsTo_congr (ℓ := v0Loc d) (q := fullShare) (landed_ones (F := F) d L f _ hw))) $$ Hb
    iexact Hb2
  isplitl [Hs' Hbufs]
  · isplitl [Hs']
    · iexists g; iexact Hs'
    · iexact Hbufs
  isplitl [Hsem Hsems]
  · isplitl [Hsem]; · iexact Hsem
    iexact Hsems
  iexists _; isplitr
  rotate_left
  · iexact HO
  · ipureintro; intro p hp
    rcases Finset.mem_insert.mp hp with hp | hp
    · exact .inr (hp ▸ rfl)
    · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_ones_body (coordsV c s)
          oV (Memref.isWhole_whole _) sW (Memref.isWhole_whole _) cc0_scratch1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P (F := F)) v₀ 0 := by
  intro d c i O W hO _ _
  -- the task owes nothing for a protocol of its own
  simp only [show (P (F := F)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO).trans (wp_mono frame _ _ fun _ => obl_post)

end Cert.Proof.KB

end
-- ==== Proof.Bits.Final.lean ====
/-
  The TensorCore's buffer contents at the end, read through the fold of boundary contents: the argument's buffer as
  launched, and the result's buffer holding 1.0 on its first 512 rows and 0.0 on the others — block row 0 (rows 0 … 2047)
  is the second kernel's one block (the 512 rows of ones on top of 1536 rows of 0.0), and every later block row is one
  of the first kernel's 31 blocks of 0.0, carried over by the copy.
-/
import proofs.«211883_g61933428412881_cont_9to1_m_917_22_alg».proof.Proof.Bits.Segs

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The argument's buffer -/

/-- No region and no host operation writes the argument's buffer: the fold walks back to the launch memory. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [copyOps, List.Forall, StableHlo.unary_writes, Finset.mem_singleton]
          exact StableHlo.devRef_ne_of_ne (by decide)))
    _ = W1 m c (Proc.devRef .tc main_arg0) := W2_of_ne m c main_arg0 (by decide)
    _ = m ((c : Thread nD τ).loc main_arg0) := by
          unfold W1
          exact Function.update_of_ne (StableHlo.devRef_ne_of_ne (by decide)) _ _

/-! ## The 512x512 array of ones, as the second region finds it -/

theorem V3_main_v0 (c : Dev nD) : V3 m c main_v0 = onesBuf c :=
  calc W3 m c (Proc.devRef .tc main_v0)
    _ = W2 m c (Proc.devRef .tc main_v0) := StableHlo.after_of_forall_not_mem (b := Proc.devRef .tc main_v0) _ _ (List.forall_iff_forall_mem.mp (by
          simp only [copyOps, List.Forall, StableHlo.unary_writes, Finset.mem_singleton]
          exact StableHlo.devRef_ne_of_ne (by decide)))
    _ = W1 m c (Proc.devRef .tc main_v0) := W2_of_ne m c main_v0 (by decide)
    _ = onesBuf c := by
          unfold W1
          exact Function.update_self _ _ _

/-- The copy puts the first region's array into the result's buffer. -/
theorem V3_main_v2 (c : Dev nD) : V3 m c main_v2 = W2 m c (Proc.devRef .tc main_v1) := by
  show StableHlo.after copyOps (W2 m c) (Proc.devRef .tc main_v2) = _
  rw [StableHlo.after_cons, StableHlo.after_nil]
  exact StableHlo.unary_result main_v1 main_v2 id _ _ (W2 m c)

/-! ## The first region's array at the end: blocks of 0.0 from block row 1 on -/

/-- Point `t` of the first kernel's grid writes block row `t + 1`, block column 0 (decided over the 31 points). -/
theorem idx_facts1 : ∀ t : Fin cfg1.N, win1_0.index t (0 : Fin 2) = t.val + 1 ∧ win1_0.index t (1 : Fin 2) = 0 :=
  (by decide +kernel : ∀ t : Fin grid1.N, win1_0.index t (0 : Fin 2) = t.val + 1 ∧ win1_0.index t (1 : Fin 2) = 0)

/-- What point `t` writes back is block `t` of the array of 0.0. -/
theorem flushed1_eq (c : Dev nD) (t : Fin cfg1.N) :
    (dat1 (V1 m) (Bd (F := F) c) c).flushed 0 t = ((cfg1.win 0).blk t).view.read (Elt F) (fun _ => zeroF) := by
  show (cfg1.win 0).cut (grid1.coords t) ((dat1 (V1 m) (Bd (F := F) c) c).after 0 t) = _
  rw [after1_0]
  rfl

/-- An index of the array is in point `t`'s block iff each coordinate is in the block's range on its axis. -/
theorem mem_blk1 (t : Fin cfg1.N) (i : S65536x512.Idx) :
    i ∈ ((cfg1.win 0).blk t).view.set ↔ ∀ a : Fin 2, win1_0.index t a * S2048x512.size a ≤ (i a).val ∧ (i a).val < win1_0.index t a * S2048x512.size a + S2048x512.size a := by
  show i ∈ ((View.whole main_v1).slice (win1_0.rect t)).set ↔ _
  rw [View.set_slice_whole, Rect.mem_set_unit]
  exact Iff.rfl

/-- The first kernel's blocks cover exactly the rows from 2048 on. -/
theorem covered_iff1 (i : S65536x512.Idx) :
    (∃ t : Fin cfg1.N, (cfg1.win 0).flush t = true ∧ i ∈ ((cfg1.win 0).blk t).view.set) ↔ 2048 ≤ (i 0).val := by
  have hi0 : (i 0).val < 65536 := Idealize.ShloMosaic.ValueIdx.idx2_lt0 i
  have hi1 : (i 1).val < 512 := Idealize.ShloMosaic.ValueIdx.idx2_lt1 i
  constructor
  · rintro ⟨t, -, hi⟩
    rw [mem_blk1] at hi
    have b0 : win1_0.index t (0 : Fin 2) * 2048 ≤ (i 0).val ∧ (i 0).val < win1_0.index t (0 : Fin 2) * 2048 + 2048 := hi 0
    obtain ⟨e0, e1⟩ := idx_facts1 t
    omega
  · intro h
    have ht : (i 0).val / 2048 - 1 < 31 := by omega
    obtain ⟨e0, e1⟩ := idx_facts1 ⟨(i 0).val / 2048 - 1, ht⟩
    have e0' : win1_0.index ⟨(i 0).val / 2048 - 1, ht⟩ (0 : Fin 2) = (i 0).val / 2048 - 1 + 1 := e0
    refine ⟨⟨(i 0).val / 2048 - 1, ht⟩, flush1_0 _, ?_⟩
    rw [mem_blk1]
    intro a
    match a with
    | ⟨0, _⟩ =>
      show win1_0.index ⟨(i 0).val / 2048 - 1, ht⟩ (0 : Fin 2) * 2048 ≤ (i 0).val ∧ (i 0).val < win1_0.index ⟨(i 0).val / 2048 - 1, ht⟩ (0 : Fin 2) * 2048 + 2048
      omega
    | ⟨1, _⟩ =>
      show win1_0.index ⟨(i 0).val / 2048 - 1, ht⟩ (1 : Fin 2) * 512 ≤ (i 1).val ∧ (i 1).val < win1_0.index ⟨(i 0).val / 2048 - 1, ht⟩ (1 : Fin 2) * 512 + 512
      omega

/-- The first region's array at the end: 0.0 from row 2048 on, its entry contents above. -/
theorem final1 (c : Dev nD) (i : S65536x512.Idx) :
    (dat1 (V1 m) (Bd (F := F) c) c).arrAt 0 cfg1.N i = if 2048 ≤ (i 0).val then zeroF else V1 m c (Pipeline.arrRef spec1 0) i := by
  rw [(dat1 (V1 m) (Bd (F := F) c) c).arrAt_eq_piecewise 0 (fun _ => zeroF) (fun t _ => flushed1_eq m c t) i, A_eq1]
  exact if_congr (covered_iff1 i) rfl rfl

/-! ## The second region's array at the end: the merged block at block row 0 -/

/-- The second kernel's one point writes block row 0, block column 0. -/
theorem idx_facts2 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- The block the second kernel reads is the 512x512 array of ones, whole. -/
theorem iblk2_ones (c : Dev nD) (t : Fin cfg2.N) : iblk2 (V3 m) c 0 t = fun _ => oneF := by
  unfold iblk2
  rw [show V3 m c (Pipeline.arrRef spec2 0) = onesBuf c from V3_main_v0 m c]
  rfl

/-- What the one point writes back is block row 0 of the result: ones on 512 rows, 0.0 on the 1536 below. -/
theorem flushed2_eq (c : Dev nD) (t : Fin cfg2.N) :
    (dat2 (V3 m) (Bd (F := F) c) c).flushed 1 t = ((cfg2.win 1).blk t).view.read (Elt F) (resBuf c) := by
  show (cfg2.win 1).cut (grid2.coords t) ((dat2 (V3 m) (Bd (F := F) c) c).after 1 t) = _
  rw [after2_1, iblk2_ones]
  obtain ⟨e0, e1⟩ := idx_facts2 t
  funext j
  show mergeBlk (fun _ => oneF) ((cfg2.win 1).xinj (grid2.coords t) j) = resBuf c (((cfg2.win 1).blk t).view.emb j)
  have h0 : ((((cfg2.win 1).blk t).view.emb j) 0).val = win2_1.index t (0 : Fin 2) * 2048 + 1 * (j 0).val := rfl
  have hx : (((cfg2.win 1).xinj (grid2.coords t) j) 0).val = (j 0).val := rfl
  unfold mergeBlk resBuf
  by_cases h : (j 0).val < 512
  · rw [dif_pos (by rw [hx]; exact h), if_pos (by rw [h0, e0]; omega)]
  · rw [dif_neg (by rw [hx]; exact h), if_neg (by rw [h0, e0]; omega)]

/-- An index of the array is in point `t`'s block iff each coordinate is in the block's range on its axis. -/
theorem mem_blk2 (t : Fin cfg2.N) (i : S65536x512.Idx) :
    i ∈ ((cfg2.win 1).blk t).view.set ↔ ∀ a : Fin 2, win2_1.index t a * S2048x512.size a ≤ (i a).val ∧ (i a).val < win2_1.index t a * S2048x512.size a + S2048x512.size a := by
  show i ∈ ((View.whole main_v2).slice (win2_1.rect t)).set ↔ _
  rw [View.set_slice_whole, Rect.mem_set_unit]
  exact Iff.rfl

/-- The second kernel's block covers exactly the rows below 2048. -/
theorem covered_iff2 (i : S65536x512.Idx) :
    (∃ t : Fin cfg2.N, (cfg2.win 1).flush t = true ∧ i ∈ ((cfg2.win 1).blk t).view.set) ↔ (i 0).val < 2048 := by
  have hi1 : (i 1).val < 512 := Idealize.ShloMosaic.ValueIdx.idx2_lt1 i
  constructor
  · rintro ⟨t, -, hi⟩
    rw [mem_blk2] at hi
    have b0 : win2_1.index t (0 : Fin 2) * 2048 ≤ (i 0).val ∧ (i 0).val < win2_1.index t (0 : Fin 2) * 2048 + 2048 := hi 0
    obtain ⟨e0, e1⟩ := idx_facts2 t
    omega
  · intro h
    have ht : 0 < 1 := Nat.one_pos
    obtain ⟨e0, e1⟩ := idx_facts2 ⟨0, ht⟩
    refine ⟨⟨0, ht⟩, flush2_1 _, ?_⟩
    rw [mem_blk2]
    intro a
    match a with
    | ⟨0, _⟩ =>
      show win2_1.index ⟨0, ht⟩ (0 : Fin 2) * 2048 ≤ (i 0).val ∧ (i 0).val < win2_1.index ⟨0, ht⟩ (0 : Fin 2) * 2048 + 2048
      omega
    | ⟨1, _⟩ =>
      show win2_1.index ⟨0, ht⟩ (1 : Fin 2) * 512 ≤ (i 1).val ∧ (i 1).val < win2_1.index ⟨0, ht⟩ (1 : Fin 2) * 512 + 512
      omega

/-- The second region's array at the end: the result's rows below 2048, its entry contents from row 2048 on. -/
theorem final2 (c : Dev nD) (i : S65536x512.Idx) :
    (dat2 (V3 m) (Bd (F := F) c) c).arrAt 1 cfg2.N i = if (i 0).val < 2048 then resBuf c i else V3 m c (Pipeline.arrRef spec2 1) i := by
  rw [(dat2 (V3 m) (Bd (F := F) c) c).arrAt_eq_piecewise 1 (resBuf c) (fun t _ => flushed2_eq m c t) i, A_eq2]
  exact if_congr (covered_iff2 i) rfl rfl

/-! ## The result's buffer -/

/-- The result's buffer at the end: 1.0 on the first 512 rows, 0.0 on the others. -/
theorem W4_main_v2 (c : Dev nD) : W4 m c (Proc.devRef .tc main_v2) = resBuf c := by
  rw [show W4 m c (Proc.devRef .tc main_v2) = (dat2 (V3 m) (Bd (F := F) c) c).arrAt 1 cfg2.N from W4_arr m c 1]
  funext i
  rw [final2]
  by_cases h : (i 0).val < 2048
  · rw [if_pos h]
  · rw [if_neg h]
    rw [show V3 m c (Pipeline.arrRef spec2 1) = W2 m c (Proc.devRef .tc main_v1) from V3_main_v2 m c,
      show W2 m c (Proc.devRef .tc main_v1) = (dat1 (V1 m) (Bd (F := F) c) c).arrAt 0 cfg1.N from W2_arr m c 0,
      final1, if_pos (by omega)]
    unfold resBuf
    rw [if_neg (by omega)]

end Cert.Proof.KB

end
-- ==== Proof.Bits.Launch.lean ====
/-
  The program's run: the launch theorem over the tile's obligation, the split of the 512x512 array into bands, the
  launch element, @main's proof and the reading of the final memory — every weakly fair execution of all the
  threads terminates with the result's buffer holding 1.0 on the first 512 rows and 0.0 below, the argument unchanged.
-/
import proofs.«211883_g61933428412881_cont_9to1_m_917_22_alg».proof.Proof.Bits.Common
import proofs.«211883_g61933428412881_cont_9to1_m_917_22_alg».proof.Proof.Bits.Main
import proofs.«211883_g61933428412881_cont_9to1_m_917_22_alg».proof.Proof.Bits.Tile
import proofs.«211883_g61933428412881_cont_9to1_m_917_22_alg».proof.Proof.Bits.Final

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

def fq (d : Dev nD) (s' : Phys nD τ sig (Elt F)) : Prop :=
  s'.mem.mem (d, a') = W4 m d a' ∧ s'.mem.mem (d, v2') = W4 m d v2'

theorem hfin (d : Dev nD) (s' : Phys nD τ sig (Elt F)) : iprop(FINW m d ∗ SI s') ⊢ (⌜fq m d s'⌝ : sProp 𝕄) := by
  iintro ⟨⟨Ha, Hv⟩, HSI⟩
  ihave H := (persistent_entails_right (SI_pointsTo_agree (st := s') (ℓ := (d, a')) (I := Finset.univ) (q := fullShare) (f := W4 m d a'))) $$ [HSI Ha]
  · isplitl [HSI] <;> iassumption
  icases H with ⟨%h1, HSI, -⟩
  ihave H := (SI_pointsTo_agree (st := s') (ℓ := (d, v2')) (I := Finset.univ) (q := fullShare) (f := W4 m d v2')) $$ [HSI Hv]
  · isplitl [HSI] <;> iassumption
  icases H with %h2
  ipureintro; exact ⟨funext fun i => h1 i (Finset.mem_univ i), funext fun i => h2 i (Finset.mem_univ i)⟩

/-- The result's buffer at its closed form, the argument array as launched, on every device. -/
def QC : PUnit × MemSt nD τ sig (Elt F) → Prop := fun r => ∀ c : Dev nD,
  r.2.mem ((c.tc : Thread nD τ).loc main_v2) = resBuf c
    ∧ r.2.mem ((c.tc : Thread nD τ).loc main_arg0) = m ((c.tc : Thread nD τ).loc main_arg0)

theorem run_main : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq)
    (fun q _ => match q with | 0 => tileObl facts)
    (fun q _ => match q with | 0 => SparseCore.Cfg.VecSplit.of_plain vecSplit)
    m ρ main (ghostG (F := F)) (FINW m) (u₀ (F := F)) (sep_elim_left.trans hu₀) (hmain m ρ) (fq m) (hfin m) (QC m)
    (fun s' h c => ⟨(h c).2.trans (W4_main_v2 m c), (h c).1.trans (W4_main_arg0 m c)⟩)

end Cert.Proof.KB

end
-- ==== Proof.lean ====
/-
  The certificate's five claims. Kernel side: sixteen SparseCore tiles each fill a band of 32 rows of a 512x512
  array with 1.0; a first TensorCore pipeline writes blocks of 0.0 at block rows 1 … 31 of a 65536x512 array; that
  array is copied into the result's buffer; a second pipeline writes, at block row 0 of the result, the 512x512 array
  on top of 1536 rows of 0.0. So the result holds 1.0 on rows 0 … 511 and 0.0 on every other row, whatever the
  launch memory held, and the argument array is never written. Reference side: 0.0 everywhere plus, scattered at the
  row indices 0 … 511, rows of 1.0 — the same function, 0 + 1 = 1 and 0 + 0 = 0 in the extended reals. The frames are
  the runs with the values dropped; the word-level program's run is the idealized program's proof read at the
  word-level instance; no operation of the kernel was rewritten by the idealization, so `preserves` is trivial.
-/
import proofs.«211883_g61933428412881_cont_9to1_m_917_22_alg».proof.Defs
import proofs.«211883_g61933428412881_cont_9to1_m_917_22_alg».proof.Proof.Gen.Kernel
import proofs.«211883_g61933428412881_cont_9to1_m_917_22_alg».proof.Proof.Gen.KernelIdeal
import proofs.«211883_g61933428412881_cont_9to1_m_917_22_alg».proof.Proof.Gen.ReferenceIdeal
import proofs.«211883_g61933428412881_cont_9to1_m_917_22_alg».proof.Proof.Gen.Pre_finite_inputs
import proofs.«211883_g61933428412881_cont_9to1_m_917_22_alg».proof.Proof.Ideal.Launch
import proofs.«211883_g61933428412881_cont_9to1_m_917_22_alg».proof.Proof.Ideal.Bridge
import proofs.«211883_g61933428412881_cont_9to1_m_917_22_alg».proof.Proof.Bits.Launch
import proofs.«211883_g61933428412881_cont_9to1_m_917_22_alg».proof.Proof.RefValue

noncomputable section

namespace Cert.Proof

open Idealize.ShloMosaic Idealize.SL.Sem

/-- The word-level program runs and leaves its argument as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Proof.KB.run_main (F := Bits) m ρ)

/-- So does the idealized program. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.Proof.KI.run_main (F := Ideal) m ρ)

/-- Both idealized programs end with the result at one function: 1.0 on rows 0 … 511, 0.0 elsewhere. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Proof.KI.resBuf (F := Ideal) c, Cert.Proof.KI.run_main (F := Ideal) m ρ, ?_⟩
  exact (θ_run Cert.ReferenceIdeal.defs _ _).mono
    (fun _ h c => ⟨(h c).1.trans (Cert.Proof.KI.resBuf_ideal c).symm, (h c).2⟩) (Cert.Proof.Ref.run_ref m' ρ')

theorem claim : Cert.Claim :=
  ⟨Cert.Kernel.Gen.facts, Cert.KernelIdeal.Gen.facts, Cert.ReferenceIdeal.Gen.facts, Cert.Pre_finite_inputs.Gen.facts,
    frame_k, frame_ki, Cert.Proof.Ref.frame_ri, trivial, algebraic⟩

end Cert.Proof

end
